-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000000 : Shape := ⟨1, ![20000000]⟩
abbrev S2x20000000 : Shape := ⟨2, ![2, 20000000]⟩
abbrev S_ : Shape := ⟨0, ![]⟩

class Facts : Prop where
  bcast_S_S20000000 : S_.BroadcastsInDim S20000000 (![] : Fin 0 → Fin S20000000.rank)
  reducesTo_S20000000_S_d0 : S20000000.ReducesTo [0] S_
  h_S_ : 0 < S_.numel

variable [Facts]

def fn {F : FTy → Type} [FloatOps F] (main_arg0 : FVec F S20000000 .f32) (main_arg1 : IVec S2x20000000 32) : IVec S_ 1 :=
  let main_v0 : FVec F S20000000 .f32 := Host.absf main_arg0
  let main_cst : FVec F S_ .f32 := constant S_ .f32 0x7F800000#32
  let main_v1 : FVec F S20000000 .f32 := broadcastInDim S20000000 ![] bcast_S_S20000000 main_cst
  let main_v2 : IVec S20000000 1 := cmpf .olt main_v0 main_v1
  let main_c : IVec S_ 1 := constantI S_ 1 1#1
  let main_v3 : IVec S_ 1 := (fun x v => Host.reduce IntOp.andi x v reducesTo_S20000000_S_d0 h_S_) main_v2 main_c
  main_v3
-- ==== Kernel.lean ====
abbrev S20000000 : Shape := ⟨1, ![20000000]⟩
abbrev S2x20000000 : Shape := ⟨2, ![2, 20000000]⟩
abbrev S156250x128 : Shape := ⟨2, ![156250, 128]⟩
abbrev S16x128 : Shape := ⟨2, ![16, 128]⟩
abbrev S16384x128 : Shape := ⟨2, ![16384, 128]⟩
abbrev S8x128 : Shape := ⟨2, ![8, 128]⟩
abbrev S1x1 : Shape := ⟨2, ![1, 1]⟩
abbrev S1x16384x128 : Shape := ⟨3, ![1, 16384, 128]⟩
abbrev S1 : Shape := ⟨1, ![1]⟩
abbrev S1x1x1 : Shape := ⟨3, ![1, 1, 1]⟩
abbrev S2x8x128 : Shape := ⟨3, ![2, 8, 128]⟩
abbrev S2x1x1 : Shape := ⟨3, ![2, 1, 1]⟩
abbrev S2 : Shape := ⟨1, ![2]⟩
abbrev S_ : Shape := ⟨0, ![]⟩

abbrev nBuf : Space → Nat
  | .hbm => 9
  | .vmem => 5
  | .smem => 0
  | _ => 0

abbrev bufTy : (tb : Table) → Fin (tcTables nBuf tb) → BufTy
  | .hbm, ⟨0, _⟩ => ⟨S20000000, .f32⟩
  | .hbm, ⟨1, _⟩ => ⟨S2x20000000, .i32⟩
  | .hbm, ⟨2, _⟩ => ⟨S156250x128, .f32⟩
  | .hbm, ⟨3, _⟩ => ⟨S16x128, .f32⟩
  | .hbm, ⟨4, _⟩ => ⟨S2x8x128, .f32⟩
  | .hbm, ⟨5, _⟩ => ⟨S2x1x1, .f32⟩
  | .hbm, ⟨6, _⟩ => ⟨S2, .f32⟩
  | .hbm, ⟨7, _⟩ => ⟨S_, .f32⟩
  | .hbm, ⟨8, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S8x128, .f32⟩
  | .local _ .vmem, ⟨3, _⟩ => ⟨S8x128, .f32⟩
  | .local _ .vmem, ⟨4, _⟩ => ⟨S1x1, .f32⟩
  | _, _ => ⟨S20000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v25 : BitVec 1 := Scalar.cmpi .eq arg1 c4_i32
  let v26 : BitVec 32 := Scalar.extui v25
  let c0_i32_7 : BitVec 32 := 0#32
  let v27 : BitVec 1 := Scalar.cmpi .ne v26 c0_i32_7
  v27

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S20000000_S156250x128 : S20000000.ShapeCasts S156250x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  iota_S16384x128_d0_w32 : S16384x128.Iotas .tc 32 [0]
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  shapeCasts_S16384x128_S1x16384x128 : S16384x128.ShapeCasts S1x16384x128
  reduces_S1x16384x128_S1 : S1x16384x128.Reduces [1, 2] S1
  shapeCasts_S1_S1x1x1 : S1.ShapeCasts S1x1x1
  inpos_S1x1x1_p0_0_0 : ∀ a, (![0, 0, 0] : Fin 3 → Nat) a < S1x1x1.size a
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S16x128_S2x8x128 : S16x128.ShapeCasts S2x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16384x128.size a < S156250x128.size a
  hwx0_0 : ∀ i : grid0.Coords, EltTy.bits .f32 = 32 ∨ (Rect.unit (s := S156250x128) (fun a => cc0_transform_0 i a * S16384x128.size a) (fun a => (Pipeline.Clip.of (cc0_transform_0 i a) (S16384x128.size a) (S156250x128.size a)).extent (S16384x128.size a)) fun a => Pipeline.Clip.inb (Pipeline.Clip.ok_of (hstart0_0 i a))).WholeWords (EltTy.packing .f32)
  hwxs0_0 : ∀ i : grid0.Coords, EltTy.bits .f32 = 32 ∨ (Rect.unit (s := S16384x128) (fun _ => 0) (fun a => (Pipeline.Clip.of (cc0_transform_0 i a) (S16384x128.size a) (S156250x128.size a)).extent (S16384x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)

variable [Facts₀]

abbrev win0_0 : Pipeline.Window sig grid0 :=
  Pipeline.Window.ofSpecClip (Memref.whole main_v0) S16384x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S20000000 : Shape := ⟨1, ![20000000]⟩
abbrev S2x20000000 : Shape := ⟨2, ![2, 20000000]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S20000000, .f32⟩
  | .hbm, ⟨1, _⟩ => ⟨S2x20000000, .i32⟩
  | .hbm, ⟨2, _⟩ => ⟨S_, .f32⟩
  | .hbm, ⟨3, _⟩ => ⟨S_, .f32⟩
  | _, _ => ⟨S20000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  reducesTo_S20000000_S_d0 : S20000000.ReducesTo [0] S_
  h_S_ : 0 < S_.numel

variable [Facts₀]

class Facts : Prop extends Facts₀ where

variable [Facts]
-- ==== Proof.K.Cases.lean ====
/-
  The grid of the summing kernel has ten points, point `t` at coordinates `(t / 5, t % 5)`: the first coordinate
  is the half of the array a partial sum is taken over, the second the position within the half. The body
  branches twice on the second coordinate: at position 0 it zeroes the one-element accumulator before adding
  to it, at position 4 it copies the accumulator over the output tile after adding to it. This module states
  the two conditions as the body computes them, decides them over the ten points (`t % 5 = 0`, `t % 5 = 4`),
  and records what follows for the output window: it is written back exactly at the points of the second
  kind, and stored into nowhere else.
-/
import proofs.«116792_j73710228734303_2_alg».proof.Proof.Gen.Kernel.Frame
import proofs.«116792_j73710228734303_2_alg».proof.Proof.Gen.Kernel.Skeleton

set_option maxRecDepth 16384

noncomputable section

namespace Cert.Kernel.Sum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The accumulator is zeroed first: the second coordinate is 0. -/
abbrev resets (i : grid0.Coords) : Prop :=
  (Scalar.cmpi .ne (Scalar.extui (Scalar.cmpi .eq (BitVec.ofNat 32 (i 1).val) 0#32)) 0#32) = 1#1

theorem resets_iff : ∀ t : Fin cfg0.N, resets (grid0.coords t) ↔ t.val % 5 = 0 :=
  (by decide +kernel : ∀ t : Fin grid0.N, resets (grid0.coords t) ↔ t.val % 5 = 0)

/-- The accumulator is copied to the output tile last: the second coordinate is 4. -/
abbrev emits (i : grid0.Coords) : Prop := k0_cond2 i = 1#1

theorem emits_iff : ∀ t : Fin cfg0.N, emits (grid0.coords t) ↔ t.val % 5 = 4 :=
  (by decide +kernel : ∀ t : Fin grid0.N, emits (grid0.coords t) ↔ t.val % 5 = 4)

/-! ## The output window: stored into, and written back, exactly where the body emits -/

theorem input_live : ∀ t : Fin cfg0.N, cfg0.idle 0 (grid0.coords t) = false := by decide +kernel

theorem output_idle : ∀ t : Fin cfg0.N, ¬emits (grid0.coords t) → cfg0.idle 1 (grid0.coords t) = true := by
  decide +kernel

theorem output_kept : ∀ t : Fin cfg0.N, ¬emits (grid0.coords t) → (cfg0.win 1).flush t = false := by
  decide +kernel

theorem output_live : ∀ t : Fin cfg0.N, emits (grid0.coords t) → cfg0.idle 1 (grid0.coords t) = false := by
  decide +kernel

/-! ## The buffers the body is handed -/

/-- The input window's and the output window's current staging buffers at point `t`, and the accumulator. -/
abbrev inBuf (t : Fin cfg0.N) : Memref sig .tc .vmem S16384x128 .f32 := win0_0.stage (cfg0.slots t 0)
abbrev inBuf_whole (t : Fin cfg0.N) : (inBuf t).IsWhole := hstage0_0 ((cfg0.slots t 0).cast nbuf0_0)
abbrev outBuf (t : Fin cfg0.N) : Memref sig .tc .vmem S8x128 .f32 := win0_1.stage (cfg0.slots t 1)
abbrev outBuf_whole (t : Fin cfg0.N) : (outBuf t).IsWhole := hstage0_1 ((cfg0.slots t 1).cast nbuf0_1)
abbrev accBuf : Memref sig .tc .vmem S1x1 .f32 := Memref.whole cc0_scratch0

/-- Views through which the accumulator's and the output tile's contents are stated. -/
abbrev accView : View sig .tc .vmem S1x1 .f32 := accBuf.view
abbrev outView : View sig .tc .vmem S8x128 .f32 := (Memref.whole cc0_stg1_0 : Memref sig .tc .vmem S8x128 .f32).view

/-- What the region hands the body besides the windows: the accumulator at some contents, and the generator
    register at some state. -/
theorem region_rest (c : Dev nD) :
    (Pipeline.ΦA spec0 c : sProp 𝕄)
      = iprop(iprop((∃ d, owns (c : Thread nD τ) accBuf fullShare d)) ∗ (∃ r, prngReg c r)) := by
  unfold Pipeline.ΦA; rw [scopedRest0_eq]; simp only [accBuf, owns_whole]; try rfl

end Cert.Kernel.Sum

end
-- ==== Proof.K.RunReset.lean ====
/-
  The body at a point of position 0 (it resets, it does not emit), on any whole buffers: the input buffer
  holding `x`, the output buffer holding `y`, the accumulator holding anything. It stores the zero vector
  into the accumulator, loads the input buffer and the accumulator, and stores their masked sum back; it
  never touches the output buffer. The triple hands back the input and output buffers as found and the
  accumulator with the two stores written; the list of the accumulator's stores is the witness.
-/
import proofs.«116792_j73710228734303_2_alg».proof.Proof.K.Cases

set_option maxRecDepth 16384

noncomputable section

namespace Cert.Kernel.Sum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where it resets and does not emit. -/
noncomputable def runReset (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : resets i) (he : ¬emits i)
    (x : Vec F S16384x128 .f32) :
    Σ' (Lout : List (View.Piece (Elt F) S8x128 .f32)), { Lacc : List (View.Piece (Elt F) S1x1 .f32) //
      ∀ (y : Vec F S8x128 .f32) (E : Set ℕ) (K : PUnit → sProp 𝕄),
        iprop(owns (c : Thread nD τ) arg2 fullShare x ∗ owns (c : Thread nD τ) arg3 fullShare y ∗ (∃ d, owns (c : Thread nD τ) arg4 fullShare d)
            ∗ (iprop(owns (c : Thread nD τ) arg2 fullShare x ∗ owns (c : Thread nD τ) arg3 fullShare y ∗ (∃ f, arg4.view.loc (c : Thread nD τ) ↦[arg4.view.set]{fullShare} arg4.view.writes (Elt F) f Lacc)) -∗ K ⟨⟩))
          ⊢ wp frame (wpE (defs₀ (F := F)) Variants.none c none) E (cc0__sum_kernel i arg2 harg2 arg3 harg3 arg4 harg4) K } := by
  refine ⟨[], ?_, fun y E K => ?run⟩
  case run =>
    simp only [cc0__sum_kernel_eq_skeleton]; unfold cc0__sum_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hr | exact he)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Sum

end
-- ==== Proof.K.RunCarry.lean ====
/-
  The body at a point of position 1, 2 or 3 (it neither resets nor emits), on any whole buffers: the input
  buffer holding `x`, the output buffer holding `y`, the accumulator holding `a`. It loads the input buffer
  and the accumulator and stores their masked sum back into the accumulator; the output buffer is untouched.
-/
import proofs.«116792_j73710228734303_2_alg».proof.Proof.K.RunReset

set_option maxRecDepth 16384

noncomputable section

namespace Cert.Kernel.Sum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where it neither resets nor emits. -/
noncomputable def runCarry (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : ¬emits i)
    (x : Vec F S16384x128 .f32) (a : Vec F S1x1 .f32) :
    Σ' (Lout : List (View.Piece (Elt F) S8x128 .f32)), { Lacc : List (View.Piece (Elt F) S1x1 .f32) //
      ∀ (y : Vec F S8x128 .f32) (E : Set ℕ) (K : PUnit → sProp 𝕄),
        iprop(owns (c : Thread nD τ) arg2 fullShare x ∗ owns (c : Thread nD τ) arg3 fullShare y ∗ owns (c : Thread nD τ) arg4 fullShare a
            ∗ (iprop(owns (c : Thread nD τ) arg2 fullShare x ∗ owns (c : Thread nD τ) arg3 fullShare y ∗ (∃ f, arg4.view.loc (c : Thread nD τ) ↦[arg4.view.set]{fullShare} arg4.view.writes (Elt F) f Lacc)) -∗ K ⟨⟩))
          ⊢ wp frame (wpE (defs₀ (F := F)) Variants.none c none) E (cc0__sum_kernel i arg2 harg2 arg3 harg3 arg4 harg4) K } := by
  refine ⟨[], ?_, fun y E K => ?run⟩
  case run =>
    simp only [cc0__sum_kernel_eq_skeleton]; unfold cc0__sum_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hr | exact he)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Sum

end
-- ==== Proof.K.RunEmit.lean ====
/-
  The body at a point of position 4 (it does not reset, it emits), on any whole buffers: the input buffer
  holding `x`, the output buffer holding anything, the accumulator holding `a`. It stores the masked sum of
  the input buffer and the accumulator back into the accumulator, then loads the accumulator and stores it,
  repeated over the tile, into the output buffer. The stores into the output buffer and into the accumulator
  are the two witnesses.
-/
import proofs.«116792_j73710228734303_2_alg».proof.Proof.K.RunCarry

set_option maxRecDepth 16384

noncomputable section

namespace Cert.Kernel.Sum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where it does not reset and emits. -/
noncomputable def runEmit (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : emits i)
    (x : Vec F S16384x128 .f32) (a : Vec F S1x1 .f32) :
    Σ' (Lout : List (View.Piece (Elt F) S8x128 .f32)), { Lacc : List (View.Piece (Elt F) S1x1 .f32) //
      ∀ (E : Set ℕ) (K : PUnit → sProp 𝕄),
        iprop(owns (c : Thread nD τ) arg2 fullShare x ∗ (∃ d, owns (c : Thread nD τ) arg3 fullShare d) ∗ owns (c : Thread nD τ) arg4 fullShare a
            ∗ (iprop(owns (c : Thread nD τ) arg2 fullShare x ∗ (∃ f, arg3.view.loc (c : Thread nD τ) ↦[arg3.view.set]{fullShare} arg3.view.writes (Elt F) f Lout) ∗ (∃ f, arg4.view.loc (c : Thread nD τ) ↦[arg4.view.set]{fullShare} arg4.view.writes (Elt F) f Lacc)) -∗ K ⟨⟩))
          ⊢ wp frame (wpE (defs₀ (F := F)) Variants.none c none) E (cc0__sum_kernel i arg2 harg2 arg3 harg3 arg4 harg4) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hr | exact he)
    sl_step
    iapply Hk
    isplitl [H0]
    · iexists _; isplitr; · ipureintro; exact harg2.read_unread _
      iexact H0
    isplitl [H1]; · iexists _; iexact H1
    iexists _; iexact HS0

end Cert.Kernel.Sum

end
-- ==== Proof.K.Leaves.lean ====
/-
  What the body leaves, case by case, as functions of what it found. Every store of the body covers its
  whole buffer, so what a buffer holds afterwards is the last store's payload, and a load after a store reads
  that store's payload. With `x` the input buffer's contents and `a` the accumulator's:
    where the body resets, the accumulator ends at the masked sum of `x` added to the zero vector;
    elsewhere it ends at the masked sum of `x` added to `a`;
    where the body emits, the output tile ends at that new accumulator repeated over the tile.
  (The masked sum and the two other payloads are the generated skeleton's `k0_pay2`, `k0_pay1`, `k0_pay3`.)
-/
import proofs.«116792_j73710228734303_2_alg».proof.Proof.K.RunEmit
import Idealize.ShloMosaic.Lib.Pipeline.Value

set_option maxRecDepth 16384

noncomputable section

namespace Cert.Kernel.Sum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl

/-! ## Where the body resets -/

theorem reset_cover (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : resets i) (he : ¬emits i) (x : Vec F S16384x128 .f32) (y : S1x1.Idx) :
    ∃ pc ∈ (runReset c i arg2 harg2 arg3 harg3 arg4 harg4 hr he x).2.1, y ∈ pc.1.set :=
  View.cover_of_tiledL (runReset c i arg2 harg2 arg3 harg3 arg4 harg4 hr he x).2.1 S1x1.size (by sl_kernel_rfl) y

/-- The accumulator after the body, read back through `accView`. -/
def resetAcc (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : resets i) (he : ¬emits i) (x : Vec F S16384x128 .f32) : Vec F S1x1 .f32 :=
  accView.read (Elt F) (accView.writes (Elt F) accView.junk (runReset c i arg2 harg2 arg3 harg3 arg4 harg4 hr he x).2.1)

theorem resetAcc_eq (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : resets i) (he : ¬emits i) (x : Vec F S16384x128 .f32) :
    resetAcc c i arg2 harg2 arg3 harg3 arg4 harg4 hr he x = k0_pay2 i x (k0_pay1 (F := F)) := by
  unfold resetAcc
  rw [View.read_writes_eq_canon _ _ _ (reset_cover c i arg2 harg2 arg3 harg3 arg4 harg4 hr he x)]
  unfold runReset; dsimp only; sl_unfold_words
  rw [View.canon_cons_unit_zero zeros2, View.readCov_unit_zero _ zeros2]
  simp only [View.readAt_eq_ld, harg2.read_unread, View.ld_unit_zero (S := S16384x128) zeros2]

/-! ## Where it neither resets nor emits -/

theorem carry_cover (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : ¬emits i) (x : Vec F S16384x128 .f32) (a : Vec F S1x1 .f32) (y : S1x1.Idx) :
    ∃ pc ∈ (runCarry c i arg2 harg2 arg3 harg3 arg4 harg4 hr he x a).2.1, y ∈ pc.1.set :=
  View.cover_of_tiledL (runCarry c i arg2 harg2 arg3 harg3 arg4 harg4 hr he x a).2.1 S1x1.size (by sl_kernel_rfl) y

def carryAcc (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : ¬emits i) (x : Vec F S16384x128 .f32) (a : Vec F S1x1 .f32) : Vec F S1x1 .f32 :=
  accView.read (Elt F) (accView.writes (Elt F) accView.junk (runCarry c i arg2 harg2 arg3 harg3 arg4 harg4 hr he x a).2.1)

theorem carryAcc_eq (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : ¬emits i) (x : Vec F S16384x128 .f32) (a : Vec F S1x1 .f32) :
    carryAcc c i arg2 harg2 arg3 harg3 arg4 harg4 hr he x a = k0_pay2 i x a := by
  unfold carryAcc
  rw [View.read_writes_eq_canon _ _ _ (carry_cover c i arg2 harg2 arg3 harg3 arg4 harg4 hr he x a)]
  unfold runCarry; dsimp only; sl_unfold_words
  rw [View.canon_unit_zero zeros2]
  simp only [View.readAt_eq_ld, harg2.read_unread, harg4.read_unread, View.ld_unit_zero (S := S16384x128) zeros2, View.ld_unit_zero (S := S1x1) zeros2]

/-! ## Where it emits -/

theorem emit_cover_acc (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : emits i) (x : Vec F S16384x128 .f32) (a : Vec F S1x1 .f32) (y : S1x1.Idx) :
    ∃ pc ∈ (runEmit c i arg2 harg2 arg3 harg3 arg4 harg4 hr he x a).2.1, y ∈ pc.1.set :=
  View.cover_of_tiledL (runEmit c i arg2 harg2 arg3 harg3 arg4 harg4 hr he x a).2.1 S1x1.size (by sl_kernel_rfl) y

theorem emit_cover_out (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : emits i) (x : Vec F S16384x128 .f32) (a : Vec F S1x1 .f32) (y : S8x128.Idx) :
    ∃ pc ∈ (runEmit c i arg2 harg2 arg3 harg3 arg4 harg4 hr he x a).1, y ∈ pc.1.set :=
  View.cover_of_tiledL (runEmit c i arg2 harg2 arg3 harg3 arg4 harg4 hr he x a).1 S8x128.size (by sl_kernel_rfl) y

def emitAcc (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : emits i) (x : Vec F S16384x128 .f32) (a : Vec F S1x1 .f32) : Vec F S1x1 .f32 :=
  accView.read (Elt F) (accView.writes (Elt F) accView.junk (runEmit c i arg2 harg2 arg3 harg3 arg4 harg4 hr he x a).2.1)

def emitOut (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : emits i) (x : Vec F S16384x128 .f32) (a : Vec F S1x1 .f32) : Vec F S8x128 .f32 :=
  outView.read (Elt F) (outView.writes (Elt F) outView.junk (runEmit c i arg2 harg2 arg3 harg3 arg4 harg4 hr he x a).1)

theorem emitAcc_eq (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : emits i) (x : Vec F S16384x128 .f32) (a : Vec F S1x1 .f32) :
    emitAcc c i arg2 harg2 arg3 harg3 arg4 harg4 hr he x a = k0_pay2 i x a := by
  unfold emitAcc
  rw [View.read_writes_eq_canon _ _ _ (emit_cover_acc c i arg2 harg2 arg3 harg3 arg4 harg4 hr he x a)]
  unfold runEmit; dsimp only; sl_unfold_words
  rw [View.canon_unit_zero zeros2]
  simp only [View.readAt_eq_ld, harg2.read_unread, harg4.read_unread, View.ld_unit_zero (S := S16384x128) zeros2, View.ld_unit_zero (S := S1x1) zeros2]

theorem emitOut_eq (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : emits i) (x : Vec F S16384x128 .f32) (a : Vec F S1x1 .f32) :
    emitOut c i arg2 harg2 arg3 harg3 arg4 harg4 hr he x a = k0_pay3 (k0_pay2 i x a) := by
  unfold emitOut
  rw [View.read_writes_eq_canon _ _ _ (emit_cover_out c i arg2 harg2 arg3 harg3 arg4 harg4 hr he x a)]
  unfold runEmit; dsimp only; sl_unfold_words
  rw [View.canon_unit_zero zeros2, View.readCov_unit_zero _ zeros2]
  simp only [View.readAt_eq_ld, harg2.read_unread, harg4.read_unread, View.ld_unit_zero (S := S16384x128) zeros2, View.ld_unit_zero (S := S1x1) zeros2]

end Cert.Kernel.Sum

end
-- ==== Proof.K.Masked.lean ====
/-
  The mask. Block `t` of the input stands for rows `16384 t .. 16384 t + 16383` of an array of 156250 rows:
  the first nine blocks lie inside it and the tenth overhangs it after its 8794th row. The body keeps entry
  `(r, l)` of the block it loaded only where `16384 t + r < 156250` (a signed 32-bit comparison of numbers far
  below 2^31) and puts zero elsewhere, and that is exactly the part of the staging buffer the clipped fetch
  filled from the array. So the masked block — and with it everything the body computes — does not depend on
  what the staging buffer held past the array's end.
-/
import proofs.«116792_j73710228734303_2_alg».proof.Proof.Gen.Kernel.Frame
import proofs.«116792_j73710228734303_2_alg».proof.Proof.Gen.Kernel.Skeleton
import Idealize.ShloMosaic.Lib.Pipeline.Value

set_option maxRecDepth 16384

noncomputable section

namespace Cert.Kernel.Sum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The comparison, as arithmetic -/

/-- For a block number `n ≤ 9` and a row `r` of the block, the body's signed comparison of `16384 n + r`
    with 156250 says what it reads: nothing wraps. -/
theorem row_inside_of_slt (n r : Nat) (hn : n ≤ 9) (hr : r < 16384)
    (h : IntOp.cmpi .slt (IntOp.addi (BitVec.ofNat 32 (16384 * n)) (BitVec.ofNat 32 (0 * 16384 + r))) 156250#32 = 1#1) :
    16384 * n + r < 156250 := by
  simp only [IntOp.cmpi, IntOp.addi] at h
  have h1 : (BitVec.ofNat 32 (16384 * n) + BitVec.ofNat 32 (0 * 16384 + r)).toNat = 16384 * n + r := by
    simp only [BitVec.toNat_add, BitVec.toNat_ofNat]; omega
  have h2 : (BitVec.ofNat 32 (16384 * n) + BitVec.ofNat 32 (0 * 16384 + r)).toInt = ((16384 * n + r : Nat) : Int) := by
    rw [BitVec.toInt_eq_toNat_cond, h1]; split <;> omega
  have h3 : (156250#32 : BitVec 32).toInt = 156250 := by decide
  by_contra hc
  have : ¬ ((BitVec.ofNat 32 (16384 * n) + BitVec.ofNat 32 (0 * 16384 + r)).slt 156250#32 = true) := by
    rw [BitVec.slt, h2, h3]; simp only [decide_eq_true_eq]; omega
  rw [Bool.not_eq_true] at this
  rw [this] at h
  exact absurd h (by decide)

/-! ## The body's arithmetic, in two steps -/

/-- The first row of the array that the block at coordinates `i` stands for, as the body computes it. -/
def rowStart (i : grid0.Coords) : BitVec 32 :=
  Scalar.muli (Scalar.addi (Scalar.muli (BitVec.ofNat 32 (i 0).val) 5#32) (BitVec.ofNat 32 (i 1).val)) 16384#32

/-- Which entries of the block the body keeps: those whose row of the array is below 156250. -/
def rowMask (i : grid0.Coords) : IVec S16384x128 1 :=
  cmpi .slt (addi (broadcast S16384x128 (rowStart i)) (iota .tc S16384x128 32 [0] iota_S16384x128_d0_w32))
    (broadcast S16384x128 156250#32)

/-- The block with zero put where the mask is off. -/
def masked (i : grid0.Coords) (X : Vec F S16384x128 .f32) : FVec F S16384x128 .f32 :=
  select (rowMask i) (shapeCast S16384x128 X shapeCasts_S16384x128_S16384x128)
    (broadcast S16384x128 (Scalar.ofBits .f32 0x00000000#32 : F .f32))

/-- The sum of all entries of a block, added to the one-element accumulator `a`. -/
def addTotal (M : FVec F S16384x128 .f32) (a : Vec F S1x1 .f32) : FVec F S1x1 .f32 :=
  shapeCast S1x1
    (addf a (broadcast S1x1 (extractAt ![0, 0, 0]
      (shapeCast S1x1x1
        (multiReduction .add [1, 2] S1 (shapeCast S1x16384x128 M shapeCasts_S16384x128_S1x16384x128) 0x00000000#32
          reduces_S1x16384x128_S1 (.inl rfl) rfl)
        shapeCasts_S1_S1x1x1)
      inpos_S1x1x1_p0_0_0)))
    shapeCasts_S1x1_S1x1

/-- The accumulate payload is: mask the block, total it, add it to the accumulator. -/
theorem pay2_eq (i : grid0.Coords) (X : Vec F S16384x128 .f32) (a : Vec F S1x1 .f32) :
    k0_pay2 i X a = addTotal (masked i X) a := rfl

/-! ## The ten blocks -/

/-- Block `t` starts at row `16384 t`. -/
theorem rowStart_eq : ∀ t : Fin grid0.N, rowStart (grid0.coords t) = BitVec.ofNat 32 (16384 * t.val) := by
  decide +kernel

/-- The fetch of block `t` fills the rows of the staging buffer that are inside the array, and every lane. -/
theorem moved_rows : ∀ t : Fin grid0.N, win0_0.xsize (grid0.coords t) 0 = min 16384 (156250 - 16384 * t.val) := by
  decide +kernel
theorem moved_lanes : ∀ t : Fin grid0.N, win0_0.xsize (grid0.coords t) 1 = 128 := by
  decide +kernel

/-- Where the mask is on, the fetch filled the entry. -/
theorem moved_of_mask (t : Fin grid0.N) (y : S16384x128.Idx) (h : rowMask (grid0.coords t) y = 1#1) :
    win0_0.moved (grid0.coords t) y = true := by
  have ht : t.val ≤ 9 := by have := lt_of_lt_of_eq t.isLt N_0; omega
  have hy0 : (y 0).val < 16384 := (y 0).isLt
  have hy1 : (y 1).val < 128 := (y 1).isLt
  have hrow : 16384 * t.val + (y 0).val < 156250 := by
    refine row_inside_of_slt t.val (y 0).val ht hy0 ?_
    rw [← rowStart_eq t]; exact h
  rw [Pipeline.Window.moved_iff]
  intro a
  match a with
  | ⟨0, _⟩ => show (y 0).val < win0_0.xsize (grid0.coords t) 0; rw [moved_rows t]; omega
  | ⟨1, _⟩ => show (y 1).val < win0_0.xsize (grid0.coords t) 1; rw [moved_lanes t]; exact hy1

/-- So the masked block of a staging buffer the fetch filled with `g` does not depend on what the buffer held
    elsewhere. -/
theorem masked_fill (t : Fin grid0.N) (d d' : S16384x128.Idx → Elt F .f32)
    (g : (win0_0.xblock (grid0.coords t)).Idx → Elt F .f32) :
    masked (grid0.coords t) (win0_0.fill (grid0.coords t) d g) = masked (grid0.coords t) (win0_0.fill (grid0.coords t) d' g) := by
  funext y
  unfold masked
  rw [shapeCast_self, shapeCast_self]
  unfold select Scalar.select
  by_cases hm : rowMask (grid0.coords t) y = 1
  · rw [if_pos hm, if_pos hm]
    have hmv := moved_of_mask t y hm
    unfold Pipeline.Window.fill
    rw [dif_pos hmv, dif_pos hmv]
  · rw [if_neg hm, if_neg hm]

theorem pay2_fill (t : Fin grid0.N) (d d' : S16384x128.Idx → Elt F .f32)
    (g : (win0_0.xblock (grid0.coords t)).Idx → Elt F .f32) (a : Vec F S1x1 .f32) :
    k0_pay2 (grid0.coords t) (win0_0.fill (grid0.coords t) d g) a = k0_pay2 (grid0.coords t) (win0_0.fill (grid0.coords t) d' g) a := by
  rw [pay2_eq, pay2_eq, masked_fill t d d' g]

end Cert.Kernel.Sum

end
-- ==== Proof.K.Frame.lean ====
/-
  The frame of the summing kernel, and what it leaves in its result.
  The accumulator after point `t` is defined by recursion on `t`: the masked total of block `t` added to zero
  where `t % 5 = 0`, and to the accumulator after point `t - 1` elsewhere — so after the last point of a half
  it is the sum of the half's five masked blocks. Between points the region's invariant holds the accumulator
  at that value (before the first point: at anything). The input window's staging buffer, fetched at every
  point, holds block `t` on the part inside the array and unspecified words past it; the body hands it back
  as found, and since the masked total ignores those words (the mask), the accumulator is a function of the
  array alone. The output window's buffer is left as found except at the points `t % 5 = 4`, where it
  receives the accumulator repeated over the tile and is written back.
-/
import proofs.«116792_j73710228734303_2_alg».proof.Proof.K.Leaves
import proofs.«116792_j73710228734303_2_alg».proof.Proof.K.Masked

set_option maxRecDepth 16384

noncomputable section

namespace Cert.Kernel.Sum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

/-- Block `t` of the input array as a whole staging block: its part inside the array, zero past it. -/
def blockAt (c : Dev nD) (t : Fin cfg0.N) : Vec F S16384x128 .f32 :=
  win0_0.fill (grid0.coords t) (fun _ => (Scalar.ofBits .f32 0x00000000#32 : F .f32)) (iblk m c 0 t)

theorem cut_blockAt (c : Dev nD) (t : Fin cfg0.N) : win0_0.cut (grid0.coords t) (blockAt m c t) = iblk m c 0 t :=
  win0_0.cut_fill _ _ _

/-- The accumulator after the body at point `n`. -/
def accAt (c : Dev nD) : (n : ℕ) → n < cfg0.N → Vec F S1x1 .f32
  | 0, hn => k0_pay2 (grid0.coords ⟨0, hn⟩) (blockAt m c ⟨0, hn⟩) (k0_pay1 (F := F))
  | n + 1, hn =>
    if (n + 1) % 5 = 0 then k0_pay2 (grid0.coords ⟨n + 1, hn⟩) (blockAt m c ⟨n + 1, hn⟩) (k0_pay1 (F := F))
    else k0_pay2 (grid0.coords ⟨n + 1, hn⟩) (blockAt m c ⟨n + 1, hn⟩) (accAt c n (Nat.lt_of_succ_lt hn))

theorem accAt_reset (c : Dev nD) (t : Fin cfg0.N) (h : t.val % 5 = 0) :
    accAt m c t.val t.isLt = k0_pay2 (grid0.coords t) (blockAt m c t) (k0_pay1 (F := F)) := by
  obtain ⟨n, hn⟩ := t
  cases n with
  | zero => rfl
  | succ n => exact if_pos h

theorem accAt_carry (c : Dev nD) (t : Fin cfg0.N) (h : ¬t.val % 5 = 0) :
    accAt m c t.val t.isLt = k0_pay2 (grid0.coords t) (blockAt m c t)
      (accAt m c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- Before point `n`: at the first point what the region hands over; afterwards the accumulator at what the
    point before left, and the generator register at some state. -/
def PhiS (c : Dev nD) : (n : ℕ) → n ≤ cfg0.N → sProp 𝕄
  | 0, _ => Pipeline.ΦA spec0 c
  | n + 1, hn => iprop(iprop(owns (c : Thread nD τ) accBuf fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accBuf fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accBuf fullShare (accAt m c (n - 1) (by omega))) ∗ (∃ r, prngReg c r)) := by
  cases n with
  | zero => exact absurd rfl hz
  | succ n => rfl

/-! ## The proof data -/

/-- On core `c`: the arrays as the region finds them; after the body at point `t` the input's buffer at block
    `t` and the output's at the accumulator repeated over the tile; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => blockAt m c t
    | ⟨1, _⟩ => k0_pay3 (accAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in (c : Dev nD) (t : Fin cfg0.N) : (dats m 0 c).after 0 t = blockAt m c t := by dsimp only [dats]
theorem after_out (c : Dev nD) (t : Fin cfg0.N) : (dats m 0 c).after 1 t = k0_pay3 (accAt m c t.val t.isLt) := by
  dsimp only [dats]

/-- The input's buffer when the body runs: just fetched — block `t` inside the array, `d` past it. -/
theorem before_in (c : Dev nD) (t : Fin cfg0.N) (d) :
    (dats m 0 c).before 0 t d = win0_0.fill (grid0.coords t) d (iblk m c 0 t) := by
  rw [Dat.before_fetched (dats m 0 c) 0 t (fetch0_0 t) d]
  unfold Dat.fetched Dat.blockOf iblk; rw [A_eq]; try rfl

/-- What the obligation asks of the input's buffer after the body: block `t` inside the array, anything past it. -/
theorem leaves_in (c : Dev nD) (t : Fin cfg0.N) :
    (dats m 0 c).leaves 0 t
      = iprop(∃ d, owns (c : Thread nD τ) (inBuf t) fullShare (win0_0.fill (grid0.coords t) d (iblk m c 0 t))) := by
  unfold Dat.leaves; rw [input_live t, after_in, ← cut_blockAt m c t]; rfl

/-- And of the output's, where the body emits: the accumulator over the tile. -/
theorem leaves_out_emit (c : Dev nD) (t : Fin cfg0.N) (he : emits (grid0.coords t)) :
    (dats m 0 c).leaves 1 t = owns (c : Thread nD τ) (outBuf t) fullShare (k0_pay3 (accAt m c t.val t.isLt)) := by
  unfold Dat.leaves; rw [output_live t he, after_out]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (inBuf t) fullShare ((dats m 0 c).before 0 t d))
    ∗ (∃ d, owns (c : Thread nD τ) (outBuf t) fullShare ((dats m 0 c).before 1 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t)

set_option maxHeartbeats 4800000 in
/-- The body at any point, by the position `t % 5`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ, leaves_in]
  have hN : t.val < 10 := lt_of_lt_of_eq t.isLt N_0
  by_cases h0 : t.val % 5 = 0
  · have h4 : ¬t.val % 5 = 4 := by omega
    have hr : resets (grid0.coords t) := (resets_iff t).mpr h0
    have he : ¬emits (grid0.coords t) := fun h => h4 ((emits_iff t).mp h)
    rw [Dat.leaves_idle (dats m 0 c) 1 t (output_idle t he) (output_kept t he), accAt_reset m c t h0]
    by_cases hz : t.val = 0
    · rw [PhiS_castSucc m c t, PhiS_zero m c _ _ hz, region_rest]
      iintro ⟨⟨HS, Hg⟩, Ho, ⟨%d0, H0⟩, ⟨%d1, H1⟩⟩
      iapply ((runReset c (grid0.coords t) (inBuf t) (inBuf_whole t) (outBuf t) (outBuf_whole t) accBuf (Memref.isWhole_whole _) hr he (win0_0.fill (grid0.coords t) d0 (iblk m c 0 t))).2.2 _ Set.univ _)
      isplitl [H0]; · iexact H0
      isplitl [H1]; · iexact H1
      isplitl [HS]; · iexact HS
      iintro ⟨H0, H1, ⟨%es, HS⟩⟩
      isplitl [HS Hg]
      · isplitl [HS]
        · unfold owns; iexists _; isplitr
          swap; · iexact HS
          ipureintro
          exact (View.read_writes_of_cover _ _ accView accView.junk _ (reset_cover c (grid0.coords t) (inBuf t) (inBuf_whole t) (outBuf t) (outBuf_whole t) accBuf (Memref.isWhole_whole _) hr he _)).trans
            ((resetAcc_eq c (grid0.coords t) (inBuf t) (inBuf_whole t) (outBuf t) (outBuf_whole t) accBuf (Memref.isWhole_whole _) hr he _).trans (pay2_fill t d0 _ (iblk m c 0 t) _))
        iexact Hg
      isplitl [Ho]; · iexact Ho
      isplitl [H0]; · iexists d0; iexact H0
      iexists _; iexact H1
    · rw [PhiS_castSucc m c t, PhiS_pos m c _ _ hz]
      iintro ⟨⟨HS, Hg⟩, Ho, ⟨%d0, H0⟩, ⟨%d1, H1⟩⟩
      iapply ((runReset c (grid0.coords t) (inBuf t) (inBuf_whole t) (outBuf t) (outBuf_whole t) accBuf (Memref.isWhole_whole _) hr he (win0_0.fill (grid0.coords t) d0 (iblk m c 0 t))).2.2 _ Set.univ _)
      isplitl [H0]; · iexact H0
      isplitl [H1]; · iexact H1
      isplitl [HS]; · iexists _; iexact HS
      iintro ⟨H0, H1, ⟨%es, HS⟩⟩
      isplitl [HS Hg]
      · isplitl [HS]
        · unfold owns; iexists _; isplitr
          swap; · iexact HS
          ipureintro
          exact (View.read_writes_of_cover _ _ accView accView.junk _ (reset_cover c (grid0.coords t) (inBuf t) (inBuf_whole t) (outBuf t) (outBuf_whole t) accBuf (Memref.isWhole_whole _) hr he _)).trans
            ((resetAcc_eq c (grid0.coords t) (inBuf t) (inBuf_whole t) (outBuf t) (outBuf_whole t) accBuf (Memref.isWhole_whole _) hr he _).trans (pay2_fill t d0 _ (iblk m c 0 t) _))
        iexact Hg
      isplitl [Ho]; · iexact Ho
      isplitl [H0]; · iexists d0; iexact H0
      iexists _; iexact H1
  · have hz : t.val ≠ 0 := fun h => h0 (by rw [h])
    have hr : ¬resets (grid0.coords t) := fun h => h0 ((resets_iff t).mp h)
    rw [PhiS_castSucc m c t, PhiS_pos m c _ _ hz, accAt_carry m c t h0]
    by_cases h4 : t.val % 5 = 4
    · have he : emits (grid0.coords t) := (emits_iff t).mpr h4
      rw [leaves_out_emit m c t he, accAt_carry m c t h0]
      iintro ⟨⟨HS, Hg⟩, Ho, ⟨%d0, H0⟩, ⟨%d1, H1⟩⟩
      iapply ((runEmit c (grid0.coords t) (inBuf t) (inBuf_whole t) (outBuf t) (outBuf_whole t) accBuf (Memref.isWhole_whole _) hr he (win0_0.fill (grid0.coords t) d0 (iblk m c 0 t)) _).2.2 Set.univ _)
      isplitl [H0]; · iexact H0
      isplitl [H1]; · iexists _; iexact H1
      isplitl [HS]; · iexact HS
      iintro ⟨H0, ⟨%e1, H1⟩, ⟨%es, HS⟩⟩
      isplitl [HS Hg]
      · isplitl [HS]
        · unfold owns; iexists _; isplitr
          swap; · iexact HS
          ipureintro
          exact (View.read_writes_of_cover _ _ accView accView.junk _ (emit_cover_acc c (grid0.coords t) (inBuf t) (inBuf_whole t) (outBuf t) (outBuf_whole t) accBuf (Memref.isWhole_whole _) hr he _ _)).trans
            ((emitAcc_eq c (grid0.coords t) (inBuf t) (inBuf_whole t) (outBuf t) (outBuf_whole t) accBuf (Memref.isWhole_whole _) hr he _ _).trans (pay2_fill t d0 _ (iblk m c 0 t) _))
        iexact Hg
      isplitl [Ho]; · iexact Ho
      isplitl [H0]; · iexists d0; iexact H0
      unfold owns; iexists _; isplitr
      swap; · iexact H1
      ipureintro
      exact (View.read_writes_of_cover _ _ outView outView.junk _ (emit_cover_out c (grid0.coords t) (inBuf t) (inBuf_whole t) (outBuf t) (outBuf_whole t) accBuf (Memref.isWhole_whole _) hr he _ _)).trans
        ((emitOut_eq c (grid0.coords t) (inBuf t) (inBuf_whole t) (outBuf t) (outBuf_whole t) accBuf (Memref.isWhole_whole _) hr he _ _).trans (congrArg k0_pay3 (pay2_fill t d0 _ (iblk m c 0 t) _)))
    · have he : ¬emits (grid0.coords t) := fun h => h4 ((emits_iff t).mp h)
      rw [Dat.leaves_idle (dats m 0 c) 1 t (output_idle t he) (output_kept t he)]
      iintro ⟨⟨HS, Hg⟩, Ho, ⟨%d0, H0⟩, ⟨%d1, H1⟩⟩
      iapply ((runCarry c (grid0.coords t) (inBuf t) (inBuf_whole t) (outBuf t) (outBuf_whole t) accBuf (Memref.isWhole_whole _) hr he (win0_0.fill (grid0.coords t) d0 (iblk m c 0 t)) _).2.2 _ Set.univ _)
      isplitl [H0]; · iexact H0
      isplitl [H1]; · iexact H1
      isplitl [HS]; · iexact HS
      iintro ⟨H0, H1, ⟨%es, HS⟩⟩
      isplitl [HS Hg]
      · isplitl [HS]
        · unfold owns; iexists _; isplitr
          swap; · iexact HS
          ipureintro
          exact (View.read_writes_of_cover _ _ accView accView.junk _ (carry_cover c (grid0.coords t) (inBuf t) (inBuf_whole t) (outBuf t) (outBuf_whole t) accBuf (Memref.isWhole_whole _) hr he _ _)).trans
            ((carryAcc_eq c (grid0.coords t) (inBuf t) (inBuf_whole t) (outBuf t) (outBuf_whole t) accBuf (Memref.isWhole_whole _) hr he _ _).trans (pay2_fill t d0 _ (iblk m c 0 t) _))
        iexact Hg
      isplitl [Ho]; · iexact Ho
      isplitl [H0]; · iexists d0; iexact H0
      iexists _; iexact H1

/-- The library's obligation for clipped windows, at every point. -/
theorem body_obligation (c : Dev nD) :
    Pipeline.BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 10 := N_0; omega
  rw [show (dats m 0 c).Φ (Fin.last cfg0.N) = PhiS m c (Fin.last cfg0.N).val (Nat.le_of_lt_succ (Fin.last cfg0.N).isLt) from rfl,
    PhiS_pos m c _ _ hne, region_rest]
  iintro ⟨HS, Hg⟩
  isplitl [HS]
  · iexists _; iexact HS
  iexact Hg

/-! ## The run and the frame -/

set_option backward.isDefEq.respectTransparency.types false in
/-- Every weakly fair execution of the program terminates, nothing faulting, with every array of the pipeline at
    what the proof data computes and every other buffer as the host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Sum

end
-- ==== Proof.KI.Cases.lean ====
/-
  The grid of the summing kernel has ten points, point `t` at coordinates `(t / 5, t % 5)`: the first coordinate
  is the half of the array a partial sum is taken over, the second the position within the half. The body
  branches twice on the second coordinate: at position 0 it zeroes the one-element accumulator before adding
  to it, at position 4 it copies the accumulator over the output tile after adding to it. This module states
  the two conditions as the body computes them, decides them over the ten points (`t % 5 = 0`, `t % 5 = 4`),
  and records what follows for the output window: it is written back exactly at the points of the second
  kind, and stored into nowhere else.
-/
import proofs.«116792_j73710228734303_2_alg».proof.Proof.Gen.KernelIdeal.Frame
import proofs.«116792_j73710228734303_2_alg».proof.Proof.Gen.KernelIdeal.Skeleton

set_option maxRecDepth 16384

noncomputable section

namespace Cert.KernelIdeal.Sum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The accumulator is zeroed first: the second coordinate is 0. -/
abbrev resets (i : grid0.Coords) : Prop :=
  (Scalar.cmpi .ne (Scalar.extui (Scalar.cmpi .eq (BitVec.ofNat 32 (i 1).val) 0#32)) 0#32) = 1#1

theorem resets_iff : ∀ t : Fin cfg0.N, resets (grid0.coords t) ↔ t.val % 5 = 0 :=
  (by decide +kernel : ∀ t : Fin grid0.N, resets (grid0.coords t) ↔ t.val % 5 = 0)

/-- The accumulator is copied to the output tile last: the second coordinate is 4. -/
abbrev emits (i : grid0.Coords) : Prop := k0_cond2 i = 1#1

theorem emits_iff : ∀ t : Fin cfg0.N, emits (grid0.coords t) ↔ t.val % 5 = 4 :=
  (by decide +kernel : ∀ t : Fin grid0.N, emits (grid0.coords t) ↔ t.val % 5 = 4)

/-! ## The output window: stored into, and written back, exactly where the body emits -/

theorem input_live : ∀ t : Fin cfg0.N, cfg0.idle 0 (grid0.coords t) = false := by decide +kernel

theorem output_idle : ∀ t : Fin cfg0.N, ¬emits (grid0.coords t) → cfg0.idle 1 (grid0.coords t) = true := by
  decide +kernel

theorem output_kept : ∀ t : Fin cfg0.N, ¬emits (grid0.coords t) → (cfg0.win 1).flush t = false := by
  decide +kernel

theorem output_live : ∀ t : Fin cfg0.N, emits (grid0.coords t) → cfg0.idle 1 (grid0.coords t) = false := by
  decide +kernel

/-! ## The buffers the body is handed -/

/-- The input window's and the output window's current staging buffers at point `t`, and the accumulator. -/
abbrev inBuf (t : Fin cfg0.N) : Memref sig .tc .vmem S16384x128 .f32 := win0_0.stage (cfg0.slots t 0)
abbrev inBuf_whole (t : Fin cfg0.N) : (inBuf t).IsWhole := hstage0_0 ((cfg0.slots t 0).cast nbuf0_0)
abbrev outBuf (t : Fin cfg0.N) : Memref sig .tc .vmem S8x128 .f32 := win0_1.stage (cfg0.slots t 1)
abbrev outBuf_whole (t : Fin cfg0.N) : (outBuf t).IsWhole := hstage0_1 ((cfg0.slots t 1).cast nbuf0_1)
abbrev accBuf : Memref sig .tc .vmem S1x1 .f32 := Memref.whole cc0_scratch0

/-- Views through which the accumulator's and the output tile's contents are stated. -/
abbrev accView : View sig .tc .vmem S1x1 .f32 := accBuf.view
abbrev outView : View sig .tc .vmem S8x128 .f32 := (Memref.whole cc0_stg1_0 : Memref sig .tc .vmem S8x128 .f32).view

/-- What the region hands the body besides the windows: the accumulator at some contents, and the generator
    register at some state. -/
theorem region_rest (c : Dev nD) :
    (Pipeline.ΦA spec0 c : sProp 𝕄)
      = iprop(iprop((∃ d, owns (c : Thread nD τ) accBuf fullShare d)) ∗ (∃ r, prngReg c r)) := by
  unfold Pipeline.ΦA; rw [scopedRest0_eq]; simp only [accBuf, owns_whole]; try rfl

end Cert.KernelIdeal.Sum

end
-- ==== Proof.KI.RunReset.lean ====
/-
  The body at a point of position 0 (it resets, it does not emit), on any whole buffers: the input buffer
  holding `x`, the output buffer holding `y`, the accumulator holding anything. It stores the zero vector
  into the accumulator, loads the input buffer and the accumulator, and stores their masked sum back; it
  never touches the output buffer. The triple hands back the input and output buffers as found and the
  accumulator with the two stores written; the list of the accumulator's stores is the witness.
-/
import proofs.«116792_j73710228734303_2_alg».proof.Proof.KI.Cases

set_option maxRecDepth 16384

noncomputable section

namespace Cert.KernelIdeal.Sum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where it resets and does not emit. -/
noncomputable def runReset (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : resets i) (he : ¬emits i)
    (x : Vec F S16384x128 .f32) :
    Σ' (Lout : List (View.Piece (Elt F) S8x128 .f32)), { Lacc : List (View.Piece (Elt F) S1x1 .f32) //
      ∀ (y : Vec F S8x128 .f32) (E : Set ℕ) (K : PUnit → sProp 𝕄),
        iprop(owns (c : Thread nD τ) arg2 fullShare x ∗ owns (c : Thread nD τ) arg3 fullShare y ∗ (∃ d, owns (c : Thread nD τ) arg4 fullShare d)
            ∗ (iprop(owns (c : Thread nD τ) arg2 fullShare x ∗ owns (c : Thread nD τ) arg3 fullShare y ∗ (∃ f, arg4.view.loc (c : Thread nD τ) ↦[arg4.view.set]{fullShare} arg4.view.writes (Elt F) f Lacc)) -∗ K ⟨⟩))
          ⊢ wp frame (wpE (defs₀ (F := F)) Variants.none c none) E (cc0__sum_kernel i arg2 harg2 arg3 harg3 arg4 harg4) K } := by
  refine ⟨[], ?_, fun y E K => ?run⟩
  case run =>
    simp only [cc0__sum_kernel_eq_skeleton]; unfold cc0__sum_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hr | exact he)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Sum

end
-- ==== Proof.KI.RunCarry.lean ====
/-
  The body at a point of position 1, 2 or 3 (it neither resets nor emits), on any whole buffers: the input
  buffer holding `x`, the output buffer holding `y`, the accumulator holding `a`. It loads the input buffer
  and the accumulator and stores their masked sum back into the accumulator; the output buffer is untouched.
-/
import proofs.«116792_j73710228734303_2_alg».proof.Proof.KI.RunReset

set_option maxRecDepth 16384

noncomputable section

namespace Cert.KernelIdeal.Sum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where it neither resets nor emits. -/
noncomputable def runCarry (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : ¬emits i)
    (x : Vec F S16384x128 .f32) (a : Vec F S1x1 .f32) :
    Σ' (Lout : List (View.Piece (Elt F) S8x128 .f32)), { Lacc : List (View.Piece (Elt F) S1x1 .f32) //
      ∀ (y : Vec F S8x128 .f32) (E : Set ℕ) (K : PUnit → sProp 𝕄),
        iprop(owns (c : Thread nD τ) arg2 fullShare x ∗ owns (c : Thread nD τ) arg3 fullShare y ∗ owns (c : Thread nD τ) arg4 fullShare a
            ∗ (iprop(owns (c : Thread nD τ) arg2 fullShare x ∗ owns (c : Thread nD τ) arg3 fullShare y ∗ (∃ f, arg4.view.loc (c : Thread nD τ) ↦[arg4.view.set]{fullShare} arg4.view.writes (Elt F) f Lacc)) -∗ K ⟨⟩))
          ⊢ wp frame (wpE (defs₀ (F := F)) Variants.none c none) E (cc0__sum_kernel i arg2 harg2 arg3 harg3 arg4 harg4) K } := by
  refine ⟨[], ?_, fun y E K => ?run⟩
  case run =>
    simp only [cc0__sum_kernel_eq_skeleton]; unfold cc0__sum_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hr | exact he)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Sum

end
-- ==== Proof.KI.RunEmit.lean ====
/-
  The body at a point of position 4 (it does not reset, it emits), on any whole buffers: the input buffer
  holding `x`, the output buffer holding anything, the accumulator holding `a`. It stores the masked sum of
  the input buffer and the accumulator back into the accumulator, then loads the accumulator and stores it,
  repeated over the tile, into the output buffer. The stores into the output buffer and into the accumulator
  are the two witnesses.
-/
import proofs.«116792_j73710228734303_2_alg».proof.Proof.KI.RunCarry

set_option maxRecDepth 16384

noncomputable section

namespace Cert.KernelIdeal.Sum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where it does not reset and emits. -/
noncomputable def runEmit (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : emits i)
    (x : Vec F S16384x128 .f32) (a : Vec F S1x1 .f32) :
    Σ' (Lout : List (View.Piece (Elt F) S8x128 .f32)), { Lacc : List (View.Piece (Elt F) S1x1 .f32) //
      ∀ (E : Set ℕ) (K : PUnit → sProp 𝕄),
        iprop(owns (c : Thread nD τ) arg2 fullShare x ∗ (∃ d, owns (c : Thread nD τ) arg3 fullShare d) ∗ owns (c : Thread nD τ) arg4 fullShare a
            ∗ (iprop(owns (c : Thread nD τ) arg2 fullShare x ∗ (∃ f, arg3.view.loc (c : Thread nD τ) ↦[arg3.view.set]{fullShare} arg3.view.writes (Elt F) f Lout) ∗ (∃ f, arg4.view.loc (c : Thread nD τ) ↦[arg4.view.set]{fullShare} arg4.view.writes (Elt F) f Lacc)) -∗ K ⟨⟩))
          ⊢ wp frame (wpE (defs₀ (F := F)) Variants.none c none) E (cc0__sum_kernel i arg2 harg2 arg3 harg3 arg4 harg4) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hr | exact he)
    sl_step
    iapply Hk
    isplitl [H0]
    · iexists _; isplitr; · ipureintro; exact harg2.read_unread _
      iexact H0
    isplitl [H1]; · iexists _; iexact H1
    iexists _; iexact HS0

end Cert.KernelIdeal.Sum

end
-- ==== Proof.KI.Leaves.lean ====
/-
  What the body leaves, case by case, as functions of what it found. Every store of the body covers its
  whole buffer, so what a buffer holds afterwards is the last store's payload, and a load after a store reads
  that store's payload. With `x` the input buffer's contents and `a` the accumulator's:
    where the body resets, the accumulator ends at the masked sum of `x` added to the zero vector;
    elsewhere it ends at the masked sum of `x` added to `a`;
    where the body emits, the output tile ends at that new accumulator repeated over the tile.
  (The masked sum and the two other payloads are the generated skeleton's `k0_pay2`, `k0_pay1`, `k0_pay3`.)
-/
import proofs.«116792_j73710228734303_2_alg».proof.Proof.KI.RunEmit
import Idealize.ShloMosaic.Lib.Pipeline.Value

set_option maxRecDepth 16384

noncomputable section

namespace Cert.KernelIdeal.Sum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl

/-! ## Where the body resets -/

theorem reset_cover (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : resets i) (he : ¬emits i) (x : Vec F S16384x128 .f32) (y : S1x1.Idx) :
    ∃ pc ∈ (runReset c i arg2 harg2 arg3 harg3 arg4 harg4 hr he x).2.1, y ∈ pc.1.set :=
  View.cover_of_tiledL (runReset c i arg2 harg2 arg3 harg3 arg4 harg4 hr he x).2.1 S1x1.size (by sl_kernel_rfl) y

/-- The accumulator after the body, read back through `accView`. -/
def resetAcc (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : resets i) (he : ¬emits i) (x : Vec F S16384x128 .f32) : Vec F S1x1 .f32 :=
  accView.read (Elt F) (accView.writes (Elt F) accView.junk (runReset c i arg2 harg2 arg3 harg3 arg4 harg4 hr he x).2.1)

theorem resetAcc_eq (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : resets i) (he : ¬emits i) (x : Vec F S16384x128 .f32) :
    resetAcc c i arg2 harg2 arg3 harg3 arg4 harg4 hr he x = k0_pay2 i x (k0_pay1 (F := F)) := by
  unfold resetAcc
  rw [View.read_writes_eq_canon _ _ _ (reset_cover c i arg2 harg2 arg3 harg3 arg4 harg4 hr he x)]
  unfold runReset; dsimp only; sl_unfold_words
  rw [View.canon_cons_unit_zero zeros2, View.readCov_unit_zero _ zeros2]
  simp only [View.readAt_eq_ld, harg2.read_unread, View.ld_unit_zero (S := S16384x128) zeros2]

/-! ## Where it neither resets nor emits -/

theorem carry_cover (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : ¬emits i) (x : Vec F S16384x128 .f32) (a : Vec F S1x1 .f32) (y : S1x1.Idx) :
    ∃ pc ∈ (runCarry c i arg2 harg2 arg3 harg3 arg4 harg4 hr he x a).2.1, y ∈ pc.1.set :=
  View.cover_of_tiledL (runCarry c i arg2 harg2 arg3 harg3 arg4 harg4 hr he x a).2.1 S1x1.size (by sl_kernel_rfl) y

def carryAcc (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : ¬emits i) (x : Vec F S16384x128 .f32) (a : Vec F S1x1 .f32) : Vec F S1x1 .f32 :=
  accView.read (Elt F) (accView.writes (Elt F) accView.junk (runCarry c i arg2 harg2 arg3 harg3 arg4 harg4 hr he x a).2.1)

theorem carryAcc_eq (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : ¬emits i) (x : Vec F S16384x128 .f32) (a : Vec F S1x1 .f32) :
    carryAcc c i arg2 harg2 arg3 harg3 arg4 harg4 hr he x a = k0_pay2 i x a := by
  unfold carryAcc
  rw [View.read_writes_eq_canon _ _ _ (carry_cover c i arg2 harg2 arg3 harg3 arg4 harg4 hr he x a)]
  unfold runCarry; dsimp only; sl_unfold_words
  rw [View.canon_unit_zero zeros2]
  simp only [View.readAt_eq_ld, harg2.read_unread, harg4.read_unread, View.ld_unit_zero (S := S16384x128) zeros2, View.ld_unit_zero (S := S1x1) zeros2]

/-! ## Where it emits -/

theorem emit_cover_acc (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : emits i) (x : Vec F S16384x128 .f32) (a : Vec F S1x1 .f32) (y : S1x1.Idx) :
    ∃ pc ∈ (runEmit c i arg2 harg2 arg3 harg3 arg4 harg4 hr he x a).2.1, y ∈ pc.1.set :=
  View.cover_of_tiledL (runEmit c i arg2 harg2 arg3 harg3 arg4 harg4 hr he x a).2.1 S1x1.size (by sl_kernel_rfl) y

theorem emit_cover_out (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : emits i) (x : Vec F S16384x128 .f32) (a : Vec F S1x1 .f32) (y : S8x128.Idx) :
    ∃ pc ∈ (runEmit c i arg2 harg2 arg3 harg3 arg4 harg4 hr he x a).1, y ∈ pc.1.set :=
  View.cover_of_tiledL (runEmit c i arg2 harg2 arg3 harg3 arg4 harg4 hr he x a).1 S8x128.size (by sl_kernel_rfl) y

def emitAcc (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : emits i) (x : Vec F S16384x128 .f32) (a : Vec F S1x1 .f32) : Vec F S1x1 .f32 :=
  accView.read (Elt F) (accView.writes (Elt F) accView.junk (runEmit c i arg2 harg2 arg3 harg3 arg4 harg4 hr he x a).2.1)

def emitOut (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : emits i) (x : Vec F S16384x128 .f32) (a : Vec F S1x1 .f32) : Vec F S8x128 .f32 :=
  outView.read (Elt F) (outView.writes (Elt F) outView.junk (runEmit c i arg2 harg2 arg3 harg3 arg4 harg4 hr he x a).1)

theorem emitAcc_eq (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : emits i) (x : Vec F S16384x128 .f32) (a : Vec F S1x1 .f32) :
    emitAcc c i arg2 harg2 arg3 harg3 arg4 harg4 hr he x a = k0_pay2 i x a := by
  unfold emitAcc
  rw [View.read_writes_eq_canon _ _ _ (emit_cover_acc c i arg2 harg2 arg3 harg3 arg4 harg4 hr he x a)]
  unfold runEmit; dsimp only; sl_unfold_words
  rw [View.canon_unit_zero zeros2]
  simp only [View.readAt_eq_ld, harg2.read_unread, harg4.read_unread, View.ld_unit_zero (S := S16384x128) zeros2, View.ld_unit_zero (S := S1x1) zeros2]

theorem emitOut_eq (c : Dev nD) (i : grid0.Coords) (arg2 : Memref sig .tc .vmem S16384x128 .f32) (harg2 : arg2.IsWhole) (arg3 : Memref sig .tc .vmem S8x128 .f32) (harg3 : arg3.IsWhole) (arg4 : Memref sig .tc .vmem S1x1 .f32) (harg4 : arg4.IsWhole) (hr : ¬resets i) (he : emits i) (x : Vec F S16384x128 .f32) (a : Vec F S1x1 .f32) :
    emitOut c i arg2 harg2 arg3 harg3 arg4 harg4 hr he x a = k0_pay3 (k0_pay2 i x a) := by
  unfold emitOut
  rw [View.read_writes_eq_canon _ _ _ (emit_cover_out c i arg2 harg2 arg3 harg3 arg4 harg4 hr he x a)]
  unfold runEmit; dsimp only; sl_unfold_words
  rw [View.canon_unit_zero zeros2, View.readCov_unit_zero _ zeros2]
  simp only [View.readAt_eq_ld, harg2.read_unread, harg4.read_unread, View.ld_unit_zero (S := S16384x128) zeros2, View.ld_unit_zero (S := S1x1) zeros2]

end Cert.KernelIdeal.Sum

end
-- ==== Proof.KI.Masked.lean ====
/-
  The mask. Block `t` of the input stands for rows `16384 t .. 16384 t + 16383` of an array of 156250 rows:
  the first nine blocks lie inside it and the tenth overhangs it after its 8794th row. The body keeps entry
  `(r, l)` of the block it loaded only where `16384 t + r < 156250` (a signed 32-bit comparison of numbers far
  below 2^31) and puts zero elsewhere, and that is exactly the part of the staging buffer the clipped fetch
  filled from the array. So the masked block — and with it everything the body computes — does not depend on
  what the staging buffer held past the array's end.
-/
import proofs.«116792_j73710228734303_2_alg».proof.Proof.Gen.KernelIdeal.Frame
import proofs.«116792_j73710228734303_2_alg».proof.Proof.Gen.KernelIdeal.Skeleton
import Idealize.ShloMosaic.Lib.Pipeline.Value

set_option maxRecDepth 16384

noncomputable section

namespace Cert.KernelIdeal.Sum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The comparison, as arithmetic -/

/-- For a block number `n ≤ 9` and a row `r` of the block, the body's signed comparison of `16384 n + r`
    with 156250 says what it reads: nothing wraps. -/
theorem row_inside_of_slt (n r : Nat) (hn : n ≤ 9) (hr : r < 16384)
    (h : IntOp.cmpi .slt (IntOp.addi (BitVec.ofNat 32 (16384 * n)) (BitVec.ofNat 32 (0 * 16384 + r))) 156250#32 = 1#1) :
    16384 * n + r < 156250 := by
  simp only [IntOp.cmpi, IntOp.addi] at h
  have h1 : (BitVec.ofNat 32 (16384 * n) + BitVec.ofNat 32 (0 * 16384 + r)).toNat = 16384 * n + r := by
    simp only [BitVec.toNat_add, BitVec.toNat_ofNat]; omega
  have h2 : (BitVec.ofNat 32 (16384 * n) + BitVec.ofNat 32 (0 * 16384 + r)).toInt = ((16384 * n + r : Nat) : Int) := by
    rw [BitVec.toInt_eq_toNat_cond, h1]; split <;> omega
  have h3 : (156250#32 : BitVec 32).toInt = 156250 := by decide
  by_contra hc
  have : ¬ ((BitVec.ofNat 32 (16384 * n) + BitVec.ofNat 32 (0 * 16384 + r)).slt 156250#32 = true) := by
    rw [BitVec.slt, h2, h3]; simp only [decide_eq_true_eq]; omega
  rw [Bool.not_eq_true] at this
  rw [this] at h
  exact absurd h (by decide)

/-! ## The body's arithmetic, in two steps -/

/-- The first row of the array that the block at coordinates `i` stands for, as the body computes it. -/
def rowStart (i : grid0.Coords) : BitVec 32 :=
  Scalar.muli (Scalar.addi (Scalar.muli (BitVec.ofNat 32 (i 0).val) 5#32) (BitVec.ofNat 32 (i 1).val)) 16384#32

/-- Which entries of the block the body keeps: those whose row of the array is below 156250. -/
def rowMask (i : grid0.Coords) : IVec S16384x128 1 :=
  cmpi .slt (addi (broadcast S16384x128 (rowStart i)) (iota .tc S16384x128 32 [0] iota_S16384x128_d0_w32))
    (broadcast S16384x128 156250#32)

/-- The block with zero put where the mask is off. -/
def masked (i : grid0.Coords) (X : Vec F S16384x128 .f32) : FVec F S16384x128 .f32 :=
  select (rowMask i) (shapeCast S16384x128 X shapeCasts_S16384x128_S16384x128)
    (broadcast S16384x128 (Scalar.ofBits .f32 0x00000000#32 : F .f32))

/-- The sum of all entries of a block, added to the one-element accumulator `a`. -/
def addTotal (M : FVec F S16384x128 .f32) (a : Vec F S1x1 .f32) : FVec F S1x1 .f32 :=
  shapeCast S1x1
    (addf a (broadcast S1x1 (extractAt ![0, 0, 0]
      (shapeCast S1x1x1
        (multiReduction .add [1, 2] S1 (shapeCast S1x16384x128 M shapeCasts_S16384x128_S1x16384x128) 0x00000000#32
          reduces_S1x16384x128_S1 (.inl rfl) rfl)
        shapeCasts_S1_S1x1x1)
      inpos_S1x1x1_p0_0_0)))
    shapeCasts_S1x1_S1x1

/-- The accumulate payload is: mask the block, total it, add it to the accumulator. -/
theorem pay2_eq (i : grid0.Coords) (X : Vec F S16384x128 .f32) (a : Vec F S1x1 .f32) :
    k0_pay2 i X a = addTotal (masked i X) a := rfl

/-! ## The ten blocks -/

/-- Block `t` starts at row `16384 t`. -/
theorem rowStart_eq : ∀ t : Fin grid0.N, rowStart (grid0.coords t) = BitVec.ofNat 32 (16384 * t.val) := by
  decide +kernel

/-- The fetch of block `t` fills the rows of the staging buffer that are inside the array, and every lane. -/
theorem moved_rows : ∀ t : Fin grid0.N, win0_0.xsize (grid0.coords t) 0 = min 16384 (156250 - 16384 * t.val) := by
  decide +kernel
theorem moved_lanes : ∀ t : Fin grid0.N, win0_0.xsize (grid0.coords t) 1 = 128 := by
  decide +kernel

/-- Where the mask is on, the fetch filled the entry. -/
theorem moved_of_mask (t : Fin grid0.N) (y : S16384x128.Idx) (h : rowMask (grid0.coords t) y = 1#1) :
    win0_0.moved (grid0.coords t) y = true := by
  have ht : t.val ≤ 9 := by have := lt_of_lt_of_eq t.isLt N_0; omega
  have hy0 : (y 0).val < 16384 := (y 0).isLt
  have hy1 : (y 1).val < 128 := (y 1).isLt
  have hrow : 16384 * t.val + (y 0).val < 156250 := by
    refine row_inside_of_slt t.val (y 0).val ht hy0 ?_
    rw [← rowStart_eq t]; exact h
  rw [Pipeline.Window.moved_iff]
  intro a
  match a with
  | ⟨0, _⟩ => show (y 0).val < win0_0.xsize (grid0.coords t) 0; rw [moved_rows t]; omega
  | ⟨1, _⟩ => show (y 1).val < win0_0.xsize (grid0.coords t) 1; rw [moved_lanes t]; exact hy1

/-- So the masked block of a staging buffer the fetch filled with `g` does not depend on what the buffer held
    elsewhere. -/
theorem masked_fill (t : Fin grid0.N) (d d' : S16384x128.Idx → Elt F .f32)
    (g : (win0_0.xblock (grid0.coords t)).Idx → Elt F .f32) :
    masked (grid0.coords t) (win0_0.fill (grid0.coords t) d g) = masked (grid0.coords t) (win0_0.fill (grid0.coords t) d' g) := by
  funext y
  unfold masked
  rw [shapeCast_self, shapeCast_self]
  unfold select Scalar.select
  by_cases hm : rowMask (grid0.coords t) y = 1
  · rw [if_pos hm, if_pos hm]
    have hmv := moved_of_mask t y hm
    unfold Pipeline.Window.fill
    rw [dif_pos hmv, dif_pos hmv]
  · rw [if_neg hm, if_neg hm]

theorem pay2_fill (t : Fin grid0.N) (d d' : S16384x128.Idx → Elt F .f32)
    (g : (win0_0.xblock (grid0.coords t)).Idx → Elt F .f32) (a : Vec F S1x1 .f32) :
    k0_pay2 (grid0.coords t) (win0_0.fill (grid0.coords t) d g) a = k0_pay2 (grid0.coords t) (win0_0.fill (grid0.coords t) d' g) a := by
  rw [pay2_eq, pay2_eq, masked_fill t d d' g]

end Cert.KernelIdeal.Sum

end
-- ==== Proof.KI.Frame.lean ====
/-
  The frame of the summing kernel, and what it leaves in its result.
  The accumulator after point `t` is defined by recursion on `t`: the masked total of block `t` added to zero
  where `t % 5 = 0`, and to the accumulator after point `t - 1` elsewhere — so after the last point of a half
  it is the sum of the half's five masked blocks. Between points the region's invariant holds the accumulator
  at that value (before the first point: at anything). The input window's staging buffer, fetched at every
  point, holds block `t` on the part inside the array and unspecified words past it; the body hands it back
  as found, and since the masked total ignores those words (the mask), the accumulator is a function of the
  array alone. The output window's buffer is left as found except at the points `t % 5 = 4`, where it
  receives the accumulator repeated over the tile and is written back.
-/
import proofs.«116792_j73710228734303_2_alg».proof.Proof.KI.Leaves
import proofs.«116792_j73710228734303_2_alg».proof.Proof.KI.Masked

set_option maxRecDepth 16384

noncomputable section

namespace Cert.KernelIdeal.Sum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

/-- Block `t` of the input array as a whole staging block: its part inside the array, zero past it. -/
def blockAt (c : Dev nD) (t : Fin cfg0.N) : Vec F S16384x128 .f32 :=
  win0_0.fill (grid0.coords t) (fun _ => (Scalar.ofBits .f32 0x00000000#32 : F .f32)) (iblk m c 0 t)

theorem cut_blockAt (c : Dev nD) (t : Fin cfg0.N) : win0_0.cut (grid0.coords t) (blockAt m c t) = iblk m c 0 t :=
  win0_0.cut_fill _ _ _

/-- The accumulator after the body at point `n`. -/
def accAt (c : Dev nD) : (n : ℕ) → n < cfg0.N → Vec F S1x1 .f32
  | 0, hn => k0_pay2 (grid0.coords ⟨0, hn⟩) (blockAt m c ⟨0, hn⟩) (k0_pay1 (F := F))
  | n + 1, hn =>
    if (n + 1) % 5 = 0 then k0_pay2 (grid0.coords ⟨n + 1, hn⟩) (blockAt m c ⟨n + 1, hn⟩) (k0_pay1 (F := F))
    else k0_pay2 (grid0.coords ⟨n + 1, hn⟩) (blockAt m c ⟨n + 1, hn⟩) (accAt c n (Nat.lt_of_succ_lt hn))

theorem accAt_reset (c : Dev nD) (t : Fin cfg0.N) (h : t.val % 5 = 0) :
    accAt m c t.val t.isLt = k0_pay2 (grid0.coords t) (blockAt m c t) (k0_pay1 (F := F)) := by
  obtain ⟨n, hn⟩ := t
  cases n with
  | zero => rfl
  | succ n => exact if_pos h

theorem accAt_carry (c : Dev nD) (t : Fin cfg0.N) (h : ¬t.val % 5 = 0) :
    accAt m c t.val t.isLt = k0_pay2 (grid0.coords t) (blockAt m c t)
      (accAt m c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- Before point `n`: at the first point what the region hands over; afterwards the accumulator at what the
    point before left, and the generator register at some state. -/
def PhiS (c : Dev nD) : (n : ℕ) → n ≤ cfg0.N → sProp 𝕄
  | 0, _ => Pipeline.ΦA spec0 c
  | n + 1, hn => iprop(iprop(owns (c : Thread nD τ) accBuf fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accBuf fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accBuf fullShare (accAt m c (n - 1) (by omega))) ∗ (∃ r, prngReg c r)) := by
  cases n with
  | zero => exact absurd rfl hz
  | succ n => rfl

/-! ## The proof data -/

/-- On core `c`: the arrays as the region finds them; after the body at point `t` the input's buffer at block
    `t` and the output's at the accumulator repeated over the tile; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => blockAt m c t
    | ⟨1, _⟩ => k0_pay3 (accAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in (c : Dev nD) (t : Fin cfg0.N) : (dats m 0 c).after 0 t = blockAt m c t := by dsimp only [dats]
theorem after_out (c : Dev nD) (t : Fin cfg0.N) : (dats m 0 c).after 1 t = k0_pay3 (accAt m c t.val t.isLt) := by
  dsimp only [dats]

/-- The input's buffer when the body runs: just fetched — block `t` inside the array, `d` past it. -/
theorem before_in (c : Dev nD) (t : Fin cfg0.N) (d) :
    (dats m 0 c).before 0 t d = win0_0.fill (grid0.coords t) d (iblk m c 0 t) := by
  rw [Dat.before_fetched (dats m 0 c) 0 t (fetch0_0 t) d]
  unfold Dat.fetched Dat.blockOf iblk; rw [A_eq]; try rfl

/-- What the obligation asks of the input's buffer after the body: block `t` inside the array, anything past it. -/
theorem leaves_in (c : Dev nD) (t : Fin cfg0.N) :
    (dats m 0 c).leaves 0 t
      = iprop(∃ d, owns (c : Thread nD τ) (inBuf t) fullShare (win0_0.fill (grid0.coords t) d (iblk m c 0 t))) := by
  unfold Dat.leaves; rw [input_live t, after_in, ← cut_blockAt m c t]; rfl

/-- And of the output's, where the body emits: the accumulator over the tile. -/
theorem leaves_out_emit (c : Dev nD) (t : Fin cfg0.N) (he : emits (grid0.coords t)) :
    (dats m 0 c).leaves 1 t = owns (c : Thread nD τ) (outBuf t) fullShare (k0_pay3 (accAt m c t.val t.isLt)) := by
  unfold Dat.leaves; rw [output_live t he, after_out]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (inBuf t) fullShare ((dats m 0 c).before 0 t d))
    ∗ (∃ d, owns (c : Thread nD τ) (outBuf t) fullShare ((dats m 0 c).before 1 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t)

set_option maxHeartbeats 4800000 in
/-- The body at any point, by the position `t % 5`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ, leaves_in]
  have hN : t.val < 10 := lt_of_lt_of_eq t.isLt N_0
  by_cases h0 : t.val % 5 = 0
  · have h4 : ¬t.val % 5 = 4 := by omega
    have hr : resets (grid0.coords t) := (resets_iff t).mpr h0
    have he : ¬emits (grid0.coords t) := fun h => h4 ((emits_iff t).mp h)
    rw [Dat.leaves_idle (dats m 0 c) 1 t (output_idle t he) (output_kept t he), accAt_reset m c t h0]
    by_cases hz : t.val = 0
    · rw [PhiS_castSucc m c t, PhiS_zero m c _ _ hz, region_rest]
      iintro ⟨⟨HS, Hg⟩, Ho, ⟨%d0, H0⟩, ⟨%d1, H1⟩⟩
      iapply ((runReset c (grid0.coords t) (inBuf t) (inBuf_whole t) (outBuf t) (outBuf_whole t) accBuf (Memref.isWhole_whole _) hr he (win0_0.fill (grid0.coords t) d0 (iblk m c 0 t))).2.2 _ Set.univ _)
      isplitl [H0]; · iexact H0
      isplitl [H1]; · iexact H1
      isplitl [HS]; · iexact HS
      iintro ⟨H0, H1, ⟨%es, HS⟩⟩
      isplitl [HS Hg]
      · isplitl [HS]
        · unfold owns; iexists _; isplitr
          swap; · iexact HS
          ipureintro
          exact (View.read_writes_of_cover _ _ accView accView.junk _ (reset_cover c (grid0.coords t) (inBuf t) (inBuf_whole t) (outBuf t) (outBuf_whole t) accBuf (Memref.isWhole_whole _) hr he _)).trans
            ((resetAcc_eq c (grid0.coords t) (inBuf t) (inBuf_whole t) (outBuf t) (outBuf_whole t) accBuf (Memref.isWhole_whole _) hr he _).trans (pay2_fill t d0 _ (iblk m c 0 t) _))
        iexact Hg
      isplitl [Ho]; · iexact Ho
      isplitl [H0]; · iexists d0; iexact H0
      iexists _; iexact H1
    · rw [PhiS_castSucc m c t, PhiS_pos m c _ _ hz]
      iintro ⟨⟨HS, Hg⟩, Ho, ⟨%d0, H0⟩, ⟨%d1, H1⟩⟩
      iapply ((runReset c (grid0.coords t) (inBuf t) (inBuf_whole t) (outBuf t) (outBuf_whole t) accBuf (Memref.isWhole_whole _) hr he (win0_0.fill (grid0.coords t) d0 (iblk m c 0 t))).2.2 _ Set.univ _)
      isplitl [H0]; · iexact H0
      isplitl [H1]; · iexact H1
      isplitl [HS]; · iexists _; iexact HS
      iintro ⟨H0, H1, ⟨%es, HS⟩⟩
      isplitl [HS Hg]
      · isplitl [HS]
        · unfold owns; iexists _; isplitr
          swap; · iexact HS
          ipureintro
          exact (View.read_writes_of_cover _ _ accView accView.junk _ (reset_cover c (grid0.coords t) (inBuf t) (inBuf_whole t) (outBuf t) (outBuf_whole t) accBuf (Memref.isWhole_whole _) hr he _)).trans
            ((resetAcc_eq c (grid0.coords t) (inBuf t) (inBuf_whole t) (outBuf t) (outBuf_whole t) accBuf (Memref.isWhole_whole _) hr he _).trans (pay2_fill t d0 _ (iblk m c 0 t) _))
        iexact Hg
      isplitl [Ho]; · iexact Ho
      isplitl [H0]; · iexists d0; iexact H0
      iexists _; iexact H1
  · have hz : t.val ≠ 0 := fun h => h0 (by rw [h])
    have hr : ¬resets (grid0.coords t) := fun h => h0 ((resets_iff t).mp h)
    rw [PhiS_castSucc m c t, PhiS_pos m c _ _ hz, accAt_carry m c t h0]
    by_cases h4 : t.val % 5 = 4
    · have he : emits (grid0.coords t) := (emits_iff t).mpr h4
      rw [leaves_out_emit m c t he, accAt_carry m c t h0]
      iintro ⟨⟨HS, Hg⟩, Ho, ⟨%d0, H0⟩, ⟨%d1, H1⟩⟩
      iapply ((runEmit c (grid0.coords t) (inBuf t) (inBuf_whole t) (outBuf t) (outBuf_whole t) accBuf (Memref.isWhole_whole _) hr he (win0_0.fill (grid0.coords t) d0 (iblk m c 0 t)) _).2.2 Set.univ _)
      isplitl [H0]; · iexact H0
      isplitl [H1]; · iexists _; iexact H1
      isplitl [HS]; · iexact HS
      iintro ⟨H0, ⟨%e1, H1⟩, ⟨%es, HS⟩⟩
      isplitl [HS Hg]
      · isplitl [HS]
        · unfold owns; iexists _; isplitr
          swap; · iexact HS
          ipureintro
          exact (View.read_writes_of_cover _ _ accView accView.junk _ (emit_cover_acc c (grid0.coords t) (inBuf t) (inBuf_whole t) (outBuf t) (outBuf_whole t) accBuf (Memref.isWhole_whole _) hr he _ _)).trans
            ((emitAcc_eq c (grid0.coords t) (inBuf t) (inBuf_whole t) (outBuf t) (outBuf_whole t) accBuf (Memref.isWhole_whole _) hr he _ _).trans (pay2_fill t d0 _ (iblk m c 0 t) _))
        iexact Hg
      isplitl [Ho]; · iexact Ho
      isplitl [H0]; · iexists d0; iexact H0
      unfold owns; iexists _; isplitr
      swap; · iexact H1
      ipureintro
      exact (View.read_writes_of_cover _ _ outView outView.junk _ (emit_cover_out c (grid0.coords t) (inBuf t) (inBuf_whole t) (outBuf t) (outBuf_whole t) accBuf (Memref.isWhole_whole _) hr he _ _)).trans
        ((emitOut_eq c (grid0.coords t) (inBuf t) (inBuf_whole t) (outBuf t) (outBuf_whole t) accBuf (Memref.isWhole_whole _) hr he _ _).trans (congrArg k0_pay3 (pay2_fill t d0 _ (iblk m c 0 t) _)))
    · have he : ¬emits (grid0.coords t) := fun h => h4 ((emits_iff t).mp h)
      rw [Dat.leaves_idle (dats m 0 c) 1 t (output_idle t he) (output_kept t he)]
      iintro ⟨⟨HS, Hg⟩, Ho, ⟨%d0, H0⟩, ⟨%d1, H1⟩⟩
      iapply ((runCarry c (grid0.coords t) (inBuf t) (inBuf_whole t) (outBuf t) (outBuf_whole t) accBuf (Memref.isWhole_whole _) hr he (win0_0.fill (grid0.coords t) d0 (iblk m c 0 t)) _).2.2 _ Set.univ _)
      isplitl [H0]; · iexact H0
      isplitl [H1]; · iexact H1
      isplitl [HS]; · iexact HS
      iintro ⟨H0, H1, ⟨%es, HS⟩⟩
      isplitl [HS Hg]
      · isplitl [HS]
        · unfold owns; iexists _; isplitr
          swap; · iexact HS
          ipureintro
          exact (View.read_writes_of_cover _ _ accView accView.junk _ (carry_cover c (grid0.coords t) (inBuf t) (inBuf_whole t) (outBuf t) (outBuf_whole t) accBuf (Memref.isWhole_whole _) hr he _ _)).trans
            ((carryAcc_eq c (grid0.coords t) (inBuf t) (inBuf_whole t) (outBuf t) (outBuf_whole t) accBuf (Memref.isWhole_whole _) hr he _ _).trans (pay2_fill t d0 _ (iblk m c 0 t) _))
        iexact Hg
      isplitl [Ho]; · iexact Ho
      isplitl [H0]; · iexists d0; iexact H0
      iexists _; iexact H1

/-- The library's obligation for clipped windows, at every point. -/
theorem body_obligation (c : Dev nD) :
    Pipeline.BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 10 := N_0; omega
  rw [show (dats m 0 c).Φ (Fin.last cfg0.N) = PhiS m c (Fin.last cfg0.N).val (Nat.le_of_lt_succ (Fin.last cfg0.N).isLt) from rfl,
    PhiS_pos m c _ _ hne, region_rest]
  iintro ⟨HS, Hg⟩
  isplitl [HS]
  · iexists _; iexact HS
  iexact Hg

/-! ## The run and the frame -/

set_option backward.isDefEq.respectTransparency.types false in
/-- Every weakly fair execution of the program terminates, nothing faulting, with every array of the pipeline at
    what the proof data computes and every other buffer as the host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Sum

end
-- ==== Proof.LibFlatSum.lean ====
/-
  Sums over an array's indices as sums over flat row-major positions.
  An array of any shape is read by position `k` in row-major order, and as zero at the positions past its end;
  then the sum of all its entries is the sum of that reading over `k < numel`, a reshape does not change the
  reading, and a range of `M · T` positions is `T` consecutive pieces of `M`. With these a total taken piece
  by piece over any tiling by consecutive runs of positions is compared with the total taken at once.
-/
import Idealize.ShloMosaic.Lib.Pipeline.Value

noncomputable section

namespace Cert.FlatSum

open Idealize.ShloMosaic

variable {M : Type} [AddCommMonoid M]

/-- The entry at row-major position `k`, zero past the array's end. -/
def flat {s : Shape} (x : s.Idx → M) (k : ℕ) : M :=
  if h : k < s.numel then x (s.rowMajor.symm ⟨k, h⟩) else 0

/-- At an index's own position the reading is the entry. -/
theorem flat_rowMajor {s : Shape} (x : s.Idx → M) (j : s.Idx) : flat x (s.rowMajor j).val = x j := by
  unfold flat
  rw [dif_pos (s.rowMajor j).isLt]
  exact congrArg x (by simp)

/-- Past the end it is zero. -/
theorem flat_of_le {s : Shape} (x : s.Idx → M) {k : ℕ} (h : s.numel ≤ k) : flat x k = 0 :=
  dif_neg (by omega)

/-- Summing a function of the row-major position over all indices is summing it over the positions. -/
theorem sum_rowMajor (s : Shape) (g : ℕ → M) :
    ∑ j : s.Idx, g (s.rowMajor j).val = ∑ k ∈ Finset.range s.numel, g k := by
  rw [← Fin.sum_univ_eq_sum_range g s.numel]
  exact Equiv.sum_comp s.rowMajor (fun k : Fin s.numel => g k.val)

/-- The sum of all entries is the sum of the flat reading over the positions. -/
theorem sum_eq_sum_range_flat {s : Shape} (x : s.Idx → M) :
    ∑ j : s.Idx, x j = ∑ k ∈ Finset.range s.numel, flat x k := by
  rw [← sum_rowMajor s (flat x)]
  exact Finset.sum_congr rfl fun j _ => (flat_rowMajor x j).symm

/-- A reshape keeps every entry at its row-major position. -/
theorem flat_shapeCast {s t : Shape} (x : s.Idx → M) (h : s.ShapeCasts t) : flat (shapeCast t x h) = flat x := by
  funext k
  unfold flat
  have hn : t.numel = s.numel := h
  by_cases hk : k < t.numel
  · rw [dif_pos hk, dif_pos (hn ▸ hk)]
    unfold shapeCast
    refine congrArg x (Shape.reshapeEquiv_eq_of_rowMajor h ?_)
    simp
  · rw [dif_neg hk, dif_neg (hn ▸ hk)]

/-- So the sum of all entries of a reshaped array is the sum of the array's. -/
theorem sum_shapeCast {s t : Shape} (x : s.Idx → M) (h : s.ShapeCasts t) :
    ∑ j : t.Idx, shapeCast t x h j = ∑ i : s.Idx, x i :=
  Equiv.sum_comp (Shape.reshapeEquiv h) x

/-- A range of `M · T` positions is `T` consecutive pieces of `M`. -/
theorem sum_range_mul (f : ℕ → M) (L T : ℕ) :
    ∑ k ∈ Finset.range (L * T), f k = ∑ t ∈ Finset.range T, ∑ k ∈ Finset.range L, f (L * t + k) := by
  induction T with
  | zero => simp
  | succ T ih => rw [Nat.mul_succ, Finset.sum_range_add, ih, Finset.sum_range_succ]

/-- A sum over a range that only meets zeros past `n` is the sum up to `n`. -/
theorem sum_range_of_zero_past (f : ℕ → M) {n N : ℕ} (hnN : n ≤ N) (hz : ∀ k, n ≤ k → f k = 0) :
    ∑ k ∈ Finset.range N, f k = ∑ k ∈ Finset.range n, f k := by
  obtain ⟨d, rfl⟩ := Nat.exists_eq_add_of_le hnN
  rw [Finset.sum_range_add, Finset.sum_eq_zero (fun k _ => hz (n + k) (Nat.le_add_right _ _)), add_zero]

end Cert.FlatSum

end
-- ==== Proof.KI.BlockTotal.lean ====
/-
  The masked total of block `t`, over the extended reals, as a sum of the argument's entries.
  The region finds the argument reshaped to 156250 rows of 128, so entry `(r, l)` of block `t` is the argument's
  entry at flat position `128 (16384 t + r) + l = 2097152 t + (128 r + l)`. The mask keeps it exactly when that
  position is below 20000000, and the argument read flat is zero from there on; so the masked block at
  row-major position `k` is the argument's flat reading at `2097152 t + k`, whether the mask is on or off, and
  its total is the sum of that reading over the 2097152 positions from `2097152 t`.
-/
import proofs.«116792_j73710228734303_2_alg».proof.Proof.KI.Frame
import proofs.«116792_j73710228734303_2_alg».proof.Proof.LibFlatSum
import Idealize.ShloMosaic.Lib.ValueIdx
import Idealize.ShloMosaic.PureOps.Ideal.Laws
import Idealize.ShloMosaic.Lib.StableHlo.Run

set_option maxRecDepth 16384

noncomputable section

namespace Cert.KernelIdeal.Sum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.FlatSum Idealize.ShloMosaic.ValueIdx

variable (m : (ℓ : Loc nD τ sig) → Buf (Elt Ideal) ℓ)

/-! ## The comparison, the other way -/

theorem slt_of_row_inside (n r : Nat) (hn : n ≤ 9) (hr : r < 16384) (h : 16384 * n + r < 156250) :
    IntOp.cmpi .slt (IntOp.addi (BitVec.ofNat 32 (16384 * n)) (BitVec.ofNat 32 (0 * 16384 + r))) 156250#32 = 1#1 := by
  simp only [IntOp.cmpi, IntOp.addi]
  have h1 : (BitVec.ofNat 32 (16384 * n) + BitVec.ofNat 32 (0 * 16384 + r)).toNat = 16384 * n + r := by
    simp only [BitVec.toNat_add, BitVec.toNat_ofNat]; omega
  have h2 : (BitVec.ofNat 32 (16384 * n) + BitVec.ofNat 32 (0 * 16384 + r)).toInt = ((16384 * n + r : Nat) : Int) := by
    rw [BitVec.toInt_eq_toNat_cond, h1]; split <;> omega
  have h3 : (156250#32 : BitVec 32).toInt = 156250 := by decide
  have : (BitVec.ofNat 32 (16384 * n) + BitVec.ofNat 32 (0 * 16384 + r)).slt 156250#32 = true := by
    rw [BitVec.slt, h2, h3]; simp only [decide_eq_true_eq]; omega
  rw [this]; rfl

/-! ## The argument, and the array of rows the region finds -/

/-- The argument array on core `c`. -/
abbrev arg (c : Dev nD) : S20000000.Idx → EReal := m ((c : Thread nD τ).loc main_arg0)

/-- The region finds the argument reshaped to rows of 128. -/
theorem rows_eq (c : Dev nD) :
    (V m c main_v0 : S156250x128.Idx → EReal) = shapeCast S156250x128 (arg m c) shapeCasts_S20000000_S156250x128 := by
  show StableHlo.after hostOps0 (fun b => m (c, b)) (Proc.devRef .tc main_v0) = _
  after_results; rfl

/-- Block `t` starts at row block `t`, lane 0. -/
theorem index_rows : ∀ t : Fin grid0.N, win0_0.index t 0 = t.val := by decide +kernel
theorem index_lanes : ∀ t : Fin grid0.N, win0_0.index t 1 = 0 := by decide +kernel

/-- One entry of block `t`, inside the array: the argument at its flat position. -/
theorem block_entry (c : Dev nD) (t : Fin cfg0.N) (y : (win0_0.xblock (grid0.coords t)).Idx) :
    iblk m c 0 t y = flat (arg m c) (2097152 * t.val + ((y 0).val * 128 + (y 1).val)) := by
  unfold iblk
  rw [View.read_apply]
  show (V m c main_v0 : S156250x128.Idx → EReal) ((win0_0.blk t).view.emb y) = _
  rw [rows_eq, ← flat_rowMajor (shapeCast S156250x128 (arg m c) shapeCasts_S20000000_S156250x128) ((win0_0.blk t).view.emb y),
    flat_shapeCast]
  congr 1
  rw [Shape.rowMajor_val_two]
  have e0 : (((win0_0.blk t).view.emb y) 0).val = win0_0.index t 0 * 16384 + 1 * (y 0).val := rfl
  have e1 : (((win0_0.blk t).view.emb y) 1).val = win0_0.index t 1 * 128 + 1 * (y 1).val := rfl
  rw [e0, e1, index_rows t, index_lanes t]
  show (t.val * 16384 + 1 * (y 0).val) * 128 + (0 * 128 + 1 * (y 1).val) = _
  omega

/-! ## The masked block, entry by entry, and its total -/

/-- The masked block at an index is the argument's flat reading at the block's start plus the index's
    row-major position — zero where the mask is off, because the reading is zero there too. -/
theorem masked_entry (c : Dev nD) (t : Fin cfg0.N) (j : S16384x128.Idx) :
    masked (F := Ideal) (grid0.coords t) (blockAt m c t) j
      = flat (arg m c) (2097152 * t.val + (S16384x128.rowMajor j).val) := by
  have ht : t.val ≤ 9 := by have := lt_of_lt_of_eq t.isLt N_0; omega
  have hj0 : (j 0).val < 16384 := (j 0).isLt
  have hj1 : (j 1).val < 128 := (j 1).isLt
  rw [Shape.rowMajor_val_two]
  show _ = flat (arg m c) (2097152 * t.val + ((j 0).val * 128 + (j 1).val))
  unfold masked
  rw [shapeCast_self]
  unfold select Scalar.select
  by_cases hm : rowMask (grid0.coords t) j = 1
  · rw [if_pos hm]
    have hmv := moved_of_mask t j hm
    unfold blockAt Pipeline.Window.fill
    rw [dif_pos hmv]
    exact block_entry m c t _
  · rw [if_neg hm]
    have hrow : ¬(16384 * t.val + (j 0).val < 156250) := fun h => hm (by
      show rowMask (grid0.coords t) j = 1#1
      unfold rowMask; rw [rowStart_eq t]
      exact slt_of_row_inside t.val (j 0).val ht hj0 h)
    rw [flat_of_le (arg m c) (by show 20000000 ≤ _; omega)]
    exact Ideal.ofBits_zero_f32

/-- The sum of the argument's flat reading over the 2097152 positions of block `n`. -/
def pieceSum (c : Dev nD) (n : ℕ) : EReal := ∑ k ∈ Finset.range 2097152, flat (arg m c) (2097152 * n + k)

theorem masked_total (c : Dev nD) (t : Fin cfg0.N) :
    ∑ j : S16384x128.Idx, masked (F := Ideal) (grid0.coords t) (blockAt m c t) j = pieceSum m c t.val := by
  rw [Finset.sum_congr rfl fun j _ => masked_entry m c t j]
  exact sum_rowMajor S16384x128 (fun k => flat (arg m c) (2097152 * t.val + k))

/-- Totalling a block into the accumulator, over the extended reals: the accumulator's entry plus the sum of the
    block's entries. -/
theorem addTotal_apply (M : FVec Ideal S16384x128 .f32) (a : Vec Ideal S1x1 .f32) (i : S1x1.Idx) :
    addTotal M a i = a i + ∑ j : S16384x128.Idx, M j := by
  unfold addTotal
  rw [shapeCast_self, addf_apply, broadcast_apply]
  unfold extractAt shapeCast
  refine congrArg (a i + ·) ?_
  refine (Ideal.multiReduction_add_total _ _ _ (by decide) _ _ _).trans ?_
  exact sum_shapeCast M shapeCasts_S16384x128_S1x16384x128

end Cert.KernelIdeal.Sum

end
-- ==== Proof.KI.Halves.lean ====
/-
  The two partial sums. Over the extended reals one step of the accumulator is: zero plus the block's piece
  of the argument where the body resets, the previous accumulator plus the block's piece elsewhere. So after
  the fifth point of half `h` the accumulator is the five pieces `5h, …, 5h + 4` added, in that order, onto zero.
-/
import proofs.«116792_j73710228734303_2_alg».proof.Proof.KI.BlockTotal

set_option maxRecDepth 16384

noncomputable section

namespace Cert.KernelIdeal.Sum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.FlatSum Idealize.ShloMosaic.ValueIdx

variable (m : (ℓ : Loc nD τ sig) → Buf (Elt Ideal) ℓ)

/-- The zero vector the body resets the accumulator to. -/
theorem pay1_apply (i : S1x1.Idx) : k0_pay1 (F := Ideal) i = 0 := by
  unfold k0_pay1
  rw [shapeCast_self]
  exact Ideal.ofBits_zero_f32

theorem acc_reset (c : Dev nD) (t : Fin cfg0.N) (h : t.val % 5 = 0) (i : S1x1.Idx) :
    accAt m c t.val t.isLt i = 0 + pieceSum m c t.val := by
  rw [accAt_reset m c t h, pay2_eq, addTotal_apply, masked_total, pay1_apply]

theorem acc_carry (c : Dev nD) (t : Fin cfg0.N) (h : ¬t.val % 5 = 0) (i : S1x1.Idx) :
    accAt m c t.val t.isLt i
      = accAt m c (t.val - 1) (Nat.lt_of_le_of_lt (Nat.sub_le _ _) t.isLt) i + pieceSum m c t.val := by
  rw [accAt_carry m c t h, pay2_eq, addTotal_apply, masked_total]

/-- Five consecutive pieces from piece `n`, added in order onto zero. -/
def fivePieces (c : Dev nD) (n : ℕ) : EReal :=
  ((((0 + pieceSum m c n) + pieceSum m c (n + 1)) + pieceSum m c (n + 2)) + pieceSum m c (n + 3)) + pieceSum m c (n + 4)

/-- The accumulator after the last point of the first half. -/
theorem acc_half0 (c : Dev nD) (i : S1x1.Idx) : accAt m c t0_4.val t0_4.isLt i = fivePieces m c 0 := by
  have s0 := acc_reset m c t0_0 (by decide) i
  have s1 := acc_carry m c t0_1 (by decide) i
  have s2 := acc_carry m c t0_2 (by decide) i
  have s3 := acc_carry m c t0_3 (by decide) i
  have s4 := acc_carry m c t0_4 (by decide) i
  exact s4.trans (congrArg (· + pieceSum m c t0_4.val) (s3.trans (congrArg (· + pieceSum m c t0_3.val)
    (s2.trans (congrArg (· + pieceSum m c t0_2.val) (s1.trans (congrArg (· + pieceSum m c t0_1.val) s0)))))))

/-- And of the second. -/
theorem acc_half1 (c : Dev nD) (i : S1x1.Idx) : accAt m c t0_9.val t0_9.isLt i = fivePieces m c 5 := by
  have s0 := acc_reset m c t0_5 (by decide) i
  have s1 := acc_carry m c t0_6 (by decide) i
  have s2 := acc_carry m c t0_7 (by decide) i
  have s3 := acc_carry m c t0_8 (by decide) i
  have s4 := acc_carry m c t0_9 (by decide) i
  exact s4.trans (congrArg (· + pieceSum m c t0_9.val) (s3.trans (congrArg (· + pieceSum m c t0_8.val)
    (s2.trans (congrArg (· + pieceSum m c t0_7.val) (s1.trans (congrArg (· + pieceSum m c t0_6.val) s0)))))))

/-- The ten pieces together are the whole argument: its flat reading is zero from position 20000000 on, and
    ten pieces of 2097152 positions reach past that. -/
theorem pieces_total (c : Dev nD) :
    fivePieces m c 0 + fivePieces m c 5 = ∑ j : S20000000.Idx, arg m c j := by
  rw [sum_eq_sum_range_flat (arg m c),
    ← sum_range_of_zero_past (flat (arg m c)) (show S20000000.numel ≤ 2097152 * 10 by decide)
      (fun k hk => flat_of_le (arg m c) hk),
    sum_range_mul (flat (arg m c)) 2097152 10]
  show fivePieces m c 0 + fivePieces m c 5 = ∑ t ∈ Finset.range 10, pieceSum m c t
  unfold fivePieces
  simp only [Finset.sum_range_succ, Finset.sum_range_zero, zero_add, Nat.reduceAdd]
  abel

end Cert.KernelIdeal.Sum

end
-- ==== Proof.KI.Result.lean ====
/-
  The result. Where the body emits, the output tile holds the accumulator's one entry at every position, and
  the tile is written back to rows `8h .. 8h + 7` of the 16-row output array after the fifth point of half `h`.
  So after the run the array is one function of its index: the first half's sum on rows 0–7, the second's on
  rows 8–15. The host then reads entries `(0, 0)` and `(8, 0)` and adds them onto zero.
-/
import proofs.«116792_j73710228734303_2_alg».proof.Proof.KI.Halves

set_option maxRecDepth 16384

noncomputable section

namespace Cert.KernelIdeal.Sum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.FlatSum Idealize.ShloMosaic.ValueIdx

variable (m : (ℓ : Loc nD τ sig) → Buf (Elt Ideal) ℓ)

/-- The emitted tile holds the accumulator's entry everywhere. -/
theorem pay3_apply (a : Vec Ideal S1x1 .f32) (j : S8x128.Idx) : k0_pay3 a j = a (ix2 0 0) := by
  unfold k0_pay3
  rw [broadcastTo_apply _ broadcasts_S1x1_S8x128 j (ix2 0 0) (fun a => by fin_cases a <;> rfl), shapeCast_self]

/-- The output array after the run. -/
def outRows (c : Dev nD) : S16x128.Idx → EReal :=
  fun j => if (j 0).val < 8 then fivePieces m c 0 else fivePieces m c 5

/-- The write-back at point `t` goes to row block `t / 5`. -/
theorem out_index_rows : ∀ t : Fin grid0.N, win0_1.index t 0 = t.val / 5 := by decide +kernel

/-- Each write-back writes a block of `outRows`. -/
theorem flushed_rows (c : Dev nD) (t : Fin cfg0.N) (hf : (cfg0.win 1).flush t = true) :
    (dats m 0 c).flushed 1 t = ((cfg0.win 1).blk t).view.read (Elt Ideal) (outRows m c) := by
  have h4 : t.val % 5 = 4 := (flush0_1 t).mp hf
  have hN : t.val < 10 := lt_of_lt_of_eq t.isLt N_0
  obtain ⟨n, hn⟩ := t
  have hn4 : n = 4 ∨ n = 9 := by simp only at h4 hN; omega
  rcases hn4 with rfl | rfl
  · funext y
    rw [View.read_apply]
    show (dats m 0 c).after 1 ⟨4, hn⟩ (win0_1.xinj (grid0.coords ⟨4, hn⟩) y) = outRows m c ((win0_1.blk ⟨4, hn⟩).view.emb y)
    rw [after_out, pay3_apply]
    have e0 : (((win0_1.blk ⟨4, hn⟩).view.emb y) 0).val = win0_1.index ⟨4, hn⟩ 0 * 8 + 1 * (y 0).val := rfl
    have hy : (y 0).val < 8 := (y 0).isLt
    have hi := out_index_rows ⟨4, hn⟩
    unfold outRows
    rw [if_pos (by rw [e0, hi]; show 4 / 5 * 8 + 1 * (y 0).val < 8; omega)]
    exact acc_half0 m c _
  · funext y
    rw [View.read_apply]
    show (dats m 0 c).after 1 ⟨9, hn⟩ (win0_1.xinj (grid0.coords ⟨9, hn⟩) y) = outRows m c ((win0_1.blk ⟨9, hn⟩).view.emb y)
    rw [after_out, pay3_apply]
    have e0 : (((win0_1.blk ⟨9, hn⟩).view.emb y) 0).val = win0_1.index ⟨9, hn⟩ 0 * 8 + 1 * (y 0).val := rfl
    have hy : (y 0).val < 8 := (y 0).isLt
    have hi := out_index_rows ⟨9, hn⟩
    unfold outRows
    rw [if_neg (by rw [e0, hi]; show ¬(9 / 5 * 8 + 1 * (y 0).val < 8); omega)]
    exact acc_half1 m c _

/-- An index of the output array is in the block written back at point `t` when it is within the block's
    bounds on both axes. -/
theorem mem_out_block (t : Fin cfg0.N) (i : S16x128.Idx) :
    i ∈ (win0_1.blk t).view.set ↔ ∀ a, win0_1.index t a * win0_1.size a ≤ (i a).val
      ∧ (i a).val < win0_1.index t a * win0_1.size a + win0_1.xsize (grid0.coords t) a := by
  show i ∈ ((View.whole main_v1).slice (win0_1.rect t)).set ↔ _
  rw [View.set_slice_whole, Rect.mem_set_unit]

theorem flush_at_4 : (cfg0.win 1).flush t0_4 = true := (flush0_1 t0_4).mpr (by decide)
theorem flush_at_9 : (cfg0.win 1).flush t0_9 = true := (flush0_1 t0_9).mpr (by decide)

/-- The two entries the host reads. -/
theorem out_entry0 (c : Dev nD) : (dats m 0 c).arrAt 1 cfg0.N (ix2 0 0) = fivePieces m c 0 :=
  (Pipeline.Dat.arrAt_apply_of_mem (dats m 0 c) 1 (outRows m c) (flushed_rows m c) cfg0.N t0_4 (ix2 0 0) t0_4.isLt flush_at_4
    (by rw [mem_out_block]; decide +kernel)).trans (if_pos (by decide))

theorem out_entry8 (c : Dev nD) : (dats m 0 c).arrAt 1 cfg0.N (ix2 8 0) = fivePieces m c 5 :=
  (Pipeline.Dat.arrAt_apply_of_mem (dats m 0 c) 1 (outRows m c) (flushed_rows m c) cfg0.N t0_9 (ix2 8 0) t0_9.isLt flush_at_9
    (by rw [mem_out_block]; decide +kernel)).trans (if_neg (by decide))

/-- The host's last lines, over the extended reals, for any 16 × 128 array `O`: viewed as 2 × 8 × 128, the entries
    `(h, 0, 0)` are `O (8h, 0)`; the two of them are added onto the zero constant. -/
theorem tail_read (O : S16x128.Idx → EReal) (i : S_.Idx) :
    Host.reduceAdd (F := Ideal)
      (shapeCast S2 (extractStridedSlice S2x1x1 ![0, 0, 0] (shapeCast S2x8x128 O shapeCasts_S16x128_S2x8x128)
        slices_S2x8x128_S2x1x1_0_0_0) shapeCasts_S2x1x1_S2)
      (constant S_ .f32 0x00000000#32) reducesTo_S2_S_d0 h_S_ i
      = 0 + (O (ix2 0 0) + O (ix2 8 0)) := by
  simp only [Host.reduceAdd, Ideal.hostReduceAdd_def]
  refine (Ideal.hostReduceAdd_total reducesTo_S2_S_d0 (fun b => b.elim0) _ _ i).trans ?_
  congr 1
  · exact Ideal.ofBits_zero_f32
  · have hn : S2.numel = 2 := by decide
    have h0 : (S2x1x1.rowMajor (ix3 0 0 0)).val = 0 := by rw [Shape.rowMajor_val_three]; rfl
    have h1 : (S2x1x1.rowMajor (ix3 1 0 0)).val = 1 := by rw [Shape.rowMajor_val_three]; rfl
    rw [sum_eq_sum_range_flat, flat_shapeCast, hn, Finset.sum_range_succ, Finset.sum_range_succ, Finset.sum_range_zero,
      zero_add]
    congr 1
    · have e := flat_rowMajor (extractStridedSlice S2x1x1 ![0, 0, 0] (shapeCast S2x8x128 O shapeCasts_S16x128_S2x8x128)
        slices_S2x8x128_S2x1x1_0_0_0) (ix3 0 0 0)
      rw [h0] at e
      refine e.trans ?_
      refine (extractStridedSlice_apply ![0, 0, 0] _ slices_S2x8x128_S2x1x1_0_0_0 (ix3 0 0 0) (ix3 0 0 0)
        (fun a => by fin_cases a <;> rfl)).trans ?_
      exact shapeCast_apply O shapeCasts_S16x128_S2x8x128 (ix3 0 0 0) (ix2 0 0) (by
        rw [Shape.rowMajor_val_two, Shape.rowMajor_val_three]; rfl)
    · have e := flat_rowMajor (extractStridedSlice S2x1x1 ![0, 0, 0] (shapeCast S2x8x128 O shapeCasts_S16x128_S2x8x128)
        slices_S2x8x128_S2x1x1_0_0_0) (ix3 1 0 0)
      rw [h1] at e
      refine e.trans ?_
      refine (extractStridedSlice_apply ![0, 0, 0] _ slices_S2x8x128_S2x1x1_0_0_0 (ix3 1 0 0) (ix3 1 0 0)
        (fun a => by fin_cases a <;> rfl)).trans ?_
      exact shapeCast_apply O shapeCasts_S16x128_S2x8x128 (ix3 1 0 0) (ix2 8 0) (by
        rw [Shape.rowMajor_val_two, Shape.rowMajor_val_three]; rfl)

/-- The output array as the host's lines find it is the array after the last write-back. -/
theorem out_found (c : Dev nD) :
    (Pipeline.withArrays (cfgs 0).spec c (V0 m c) (fun w => (dats m 0 c).arrAt w (cfgs 0).N) (Proc.devRef .tc main_v1)
      : S16x128.Idx → EReal) = (dats m 0 c).arrAt 1 cfg0.N :=
  Pipeline.withArrays_arr spec0 launch0.win.arr_inj c _ _ 1

/-- The program's result on core `c`: zero plus the two halves' sums. -/
theorem result_eq (c : Dev nD) (i : S_.Idx) :
    Pipeline.afterTail₀ cfgs (dats m) 0 (V0 m) [hostOps1] c main_v5 i = 0 + (fivePieces m c 0 + fivePieces m c 5) := by
  unfold Pipeline.afterTail₀
  show StableHlo.after hostOps1 _ (Proc.devRef .tc main_v5) i = _
  after_results
  refine (tail_read _ i).trans ?_
  rw [out_found, out_entry0, out_entry8]

end Cert.KernelIdeal.Sum

end
-- ==== Proof.lean ====
/-
  The sum of twenty million numbers, taken in two halves by a kernel, against the sum taken at once.
  The kernel views the argument as 156250 rows of 128 and walks ten blocks of 16384 rows, five per half; the
  tenth block overhangs the array after its 8794th row and the rows past the end are masked to zero. Each half
  keeps a one-element accumulator — zeroed at its first block, each block's masked total added to it — and
  leaves it in a row block of a 16 × 128 output; the host adds the two onto zero. The reference adds all
  entries onto zero.
  Over the extended reals both are the same number: read flat, the masked blocks are ten consecutive runs of
  2097152 positions of the argument extended by zero, the reference's sum is the sum over those positions, and
  addition of extended reals is commutative and associative, so no finiteness of the entries is used. The
  idealization rewrote nothing, so it preserves the kernel vacuously. Each program terminates without a fault
  and leaves its arguments unchanged: for the two kernels this is the region's run with the accumulator carried
  in the invariant; for the reference it is its run with the result dropped.
-/
import proofs.«116792_j73710228734303_2_alg».proof.Defs
import proofs.«116792_j73710228734303_2_alg».proof.Proof.Gen.Kernel
import proofs.«116792_j73710228734303_2_alg».proof.Proof.Gen.KernelIdeal
import proofs.«116792_j73710228734303_2_alg».proof.Proof.Gen.ReferenceIdeal
import proofs.«116792_j73710228734303_2_alg».proof.Proof.Gen.Pre_finite_inputs
import proofs.«116792_j73710228734303_2_alg».proof.Proof.Gen.ReferenceIdeal.Run
import proofs.«116792_j73710228734303_2_alg».proof.Proof.Gen.ReferenceIdeal.Read
import proofs.«116792_j73710228734303_2_alg».proof.Proof.K.Frame
import proofs.«116792_j73710228734303_2_alg».proof.Proof.KI.Result
import Idealize.ShloMosaic.Adequacy
import Idealize.ShloMosaic.Init

noncomputable section

namespace Cert.Proof

open Idealize.ShloMosaic Idealize.ShloMosaic.TcCoe Idealize.SL.Sem

/-! ## The three frames -/

theorem frame_kernel : Cert.frame_Kernel := fun m ρ _ => Cert.Kernel.Sum.frame m ρ

theorem frame_kernelIdeal : Cert.frame_KernelIdeal := fun m ρ _ => Cert.KernelIdeal.Sum.frame m ρ

theorem frame_reference : Cert.frame_ReferenceIdeal := fun m ρ _ =>
  (θ_run Cert.ReferenceIdeal.defs _ _).mono (fun _ h c => (h c).2) (Cert.ReferenceIdeal.Value.run (F := Ideal) m ρ)

/-! ## The two sums are one number -/

/-- On every core the kernel's result is the reference's: zero plus the two halves' sums is zero plus the sum
    of all entries. -/
theorem result_is_sum (m : (ℓ : Loc Cert.KernelIdeal.nD Cert.KernelIdeal.τ Cert.KernelIdeal.sig) → Buf (Elt Ideal) ℓ)
    (c : Dev Cert.KernelIdeal.nD) :
    Pipeline.afterTail₀ Cert.KernelIdeal.cfgs (Cert.KernelIdeal.Sum.dats m) 0 (Cert.KernelIdeal.Gen.V0 m)
        [Cert.KernelIdeal.Gen.hostOps1] c Cert.KernelIdeal.main_v5
      = Cert.ReferenceIdeal.Read.val_main_v0 (F := Ideal)
          (m ((c.tc : Thread Cert.KernelIdeal.nD Cert.KernelIdeal.τ).loc Cert.KernelIdeal.main_arg0)) := by
  funext i
  rw [Cert.KernelIdeal.Sum.result_eq m c i, Cert.ReferenceIdeal.Read.val_main_v0_apply,
    Cert.KernelIdeal.Sum.pieces_total m c]
  congr 1
  exact Ideal.ofBits_zero_f32.symm

theorem algebraic : Cert.algebraic_KernelIdeal_ReferenceIdeal := by
  intro m ρ m' ρ' _ hagree
  refine ⟨fun c => Cert.ReferenceIdeal.Read.val_main_v0 (F := Ideal)
    (m ((c.tc : Thread Cert.KernelIdeal.nD Cert.KernelIdeal.τ).loc Cert.KernelIdeal.main_arg0)), ?_, ?_⟩
  · refine (θ_run Cert.KernelIdeal.defs _ _).mono (fun r h c => ⟨?_, ?_, ?_⟩) (Cert.KernelIdeal.Sum.run_main m ρ)
    · exact ((h c).2 Cert.KernelIdeal.main_v5 (Pipeline.mem_restRefs_of Cert.KernelIdeal.main_v5 (by decide) (by decide))).trans
        (result_is_sum m c)
    · exact ((h c).2 Cert.KernelIdeal.main_arg0 (Pipeline.mem_restRefs_of Cert.KernelIdeal.main_arg0 (by decide) (by decide))).trans
        (Cert.KernelIdeal.Gen.W_main_arg0 m (Cert.KernelIdeal.Sum.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Sum.dats m) c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v0_eq, (hagree c).1]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
